-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S1x64 : Shape := ⟨2, ![1, 64]⟩
abbrev S64 : Shape := ⟨1, ![64]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x1 .f32) (main_arg1 : FVec F S1x64 .f32) (main_arg2 : FVec F S64 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x1 : Shape := ⟨2, ![8192, 1]⟩
abbrev S1x64 : Shape := ⟨2, ![1, 64]⟩
abbrev S64 : Shape := ⟨1, ![64]⟩
abbrev S8192x64 : Shape := ⟨2, ![8192, 64]⟩
abbrev S1024x1 : Shape := ⟨2, ![1024, 1]⟩
abbrev S1024x64 : Shape := ⟨2, ![1024, 64]⟩
abbrev S1024 : Shape := ⟨1, ![1024]⟩
abbrev S128x64 : Shape := ⟨2, ![128, 64]⟩
abbrev S128x1 : Shape := ⟨2, ![128, 1]⟩
abbrev S128x8192 : Shape := ⟨2, ![128, 8192]⟩
abbrev S128 : Shape := ⟨1, ![128]⟩
abbrev S_ : Shape := ⟨0, ![]⟩

abbrev nBuf : Space → Nat
  | .hbm => 14
  | .vmem => 13
  | .smem => 0
  | _ => 0

abbrev bufTy : (tb : Table) → Fin (tcTables nBuf tb) → BufTy
  | .hbm, ⟨0, _⟩ => ⟨S8192x1, .f32⟩
  | .hbm, ⟨1, _⟩ => ⟨S1x64, .f32⟩
  | .hbm, ⟨2, _⟩ => ⟨S64, .f32⟩
  | .hbm, ⟨3, _⟩ => ⟨S1x64, .f32⟩
  | .hbm, ⟨4, _⟩ => ⟨S8192x64, .f32⟩
  | .hbm, ⟨5, _⟩ => ⟨S8192x64, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x64, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S128x64, .f32⟩
  | .local _ .vmem, ⟨9, _⟩ => ⟨S128x64, .f32⟩
  | .local _ .vmem, ⟨10, _⟩ => ⟨S8192x64, .f32⟩
  | .local _ .vmem, ⟨11, _⟩ => ⟨S128x1, .f32⟩
  | .local _ .vmem, ⟨12, _⟩ => ⟨S128x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S64_S1x64 : S64.ShapeCasts S1x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S128x8192_S128 : S128x8192.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  reducesTo_S8192x1_S_d0_1 : S8192x1.ReducesTo [0, 1] S_
  h_S_ : 0 < S_.numel
  dot_S128x64_S8192x64_S128x8192_1_1_0_0_n_n_wf : DotDims.WF S128x64 S8192x64 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S8192x64.size a
  hwx1_0 : ∀ i : grid1.Coords, EltTy.bits .f32 = 32 ∨ (Rect.block (s := S8192x64) S128x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S8192x1.size a
  hwx1_2 : ∀ i : grid1.Coords, EltTy.bits .f32 = 32 ∨ (Rect.block (s := S8192x1) S128x1.size (cc1_transform_2 i) (hinb1_2 i)).WholeWords (EltTy.packing .f32)

variable [Facts₀]

def dot_S128x64_S8192x64_S128x8192_1_1_0_0_n_n : DotDims S128x64 S8192x64 S128x8192 where
  lhsContracting := [1]
  rhsContracting := [1]
  lhsNonContracting := [0]
  rhsNonContracting := [0]
  lhsBatch := []
  rhsBatch := []
  wf := dot_S128x64_S8192x64_S128x8192_1_1_0_0_n_n_wf

abbrev win0_0 : Pipeline.Window sig grid0 :=
  Pipeline.Window.ofSpec (Memref.whole main_arg0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_1) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x1 : Shape := ⟨2, ![8192, 1]⟩
abbrev S1x64 : Shape := ⟨2, ![1, 64]⟩
abbrev S64 : Shape := ⟨1, ![64]⟩
abbrev S8192x64 : Shape := ⟨2, ![8192, 64]⟩
abbrev S_ : Shape := ⟨0, ![]⟩
abbrev S8192 : Shape := ⟨1, ![8192]⟩
abbrev S64x8192 : Shape := ⟨2, ![64, 8192]⟩
abbrev S8192x8192 : Shape := ⟨2, ![8192, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S1x64, .f32⟩
  | .hbm, ⟨2, _⟩ => ⟨S64, .f32⟩
  | .hbm, ⟨3, _⟩ => ⟨S8192x64, .f32⟩
  | .hbm, ⟨4, _⟩ => ⟨S1x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x64, .f32⟩
  | .hbm, ⟨16, _⟩ => ⟨S8192x64, .f32⟩
  | .hbm, ⟨17, _⟩ => ⟨S64x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x1_S1x64_S8192x64_1_0_0_1_n_n_wf : DotDims.WF S8192x1 S1x64 S8192x64 [1] [0] [0] [1] [] []
  dot_S8192x64_S64x8192_S8192x8192_1_0_0_1_n_n_wf : DotDims.WF S8192x64 S64x8192 S8192x8192 [1] [0] [0] [1] [] []

variable [Facts₀]

def dot_S8192x1_S1x64_S8192x64_1_0_0_1_n_n : DotDims S8192x1 S1x64 S8192x64 where
  lhsContracting := [1]
  rhsContracting := [0]
  lhsNonContracting := [0]
  rhsNonContracting := [1]
  lhsBatch := []
  rhsBatch := []
  wf := dot_S8192x1_S1x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Kernel.Region0.lean ====
/-
  The first kernel region: rows of the input column are scaled by the weight row, shifted by the bias row, and
  normalised by their Euclidean length (floored at a small constant). This module describes, for any contents
  `V` the unscoped buffers hold when the region is entered, what every staging buffer holds after the body at
  every grid point: an input window keeps its block, the first output window holds the affine rows, the second
  the normalised rows, both as functions of the three input blocks alone. From that it derives the obligation
  the pipeline asks of the body at each point.
-/
import proofs.«110632_j7215545057629_2_alg».proof.Proof.Gen.Kernel.Launch
import proofs.«110632_j7215545057629_2_alg».proof.Proof.Gen.Kernel.Skeleton
import proofs.«110632_j7215545057629_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows' arrays -/

/-- The block of window `w`'s array that grid point `t` addresses, read off the entry contents. -/
def blockA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds that block at every point, whether or not the
    pipeline fetched it there (an unfetched window's block index has not moved). Window 0: the column block. -/
theorem foundA_0 {c : Dev nD} (dat : Dat τ (Elt F) Unit ℕ (UR sig nD τ) ℕ cfg0 c) (hA : dat.A 0 = V c (Pipeline.arrRef spec0 0))
    (hafter : ∀ t, dat.after 0 t = blockA V c 0 t) (t : Fin cfg0.N) (d) : dat.before 0 t d = blockA V c 0 t :=
  (dat.before_in_eq_fetched 0 rfl (fun _ => rfl) (fun _ _ _ => rfl) (fun t => by rw [hafter]; unfold Dat.blockOf blockA; rw [hA]; try rfl) t d).trans
    (by unfold Dat.fetched Dat.blockOf blockA; rw [hA]; try rfl)
/-- Window 1: the weight row, resident. -/
theorem foundA_1 {c : Dev nD} (dat : Dat τ (Elt F) Unit ℕ (UR sig nD τ) ℕ cfg0 c) (hA : dat.A 1 = V c (Pipeline.arrRef spec0 1))
    (hafter : ∀ t, dat.after 1 t = blockA V c 1 t) (t : Fin cfg0.N) (d) : dat.before 1 t d = blockA V c 1 t :=
  (dat.before_in_eq_fetched 1 rfl (fun _ => rfl) (fun _ _ _ => rfl) (fun t => by rw [hafter]; unfold Dat.blockOf blockA; rw [hA]; try rfl) t d).trans
    (by unfold Dat.fetched Dat.blockOf blockA; rw [hA]; try rfl)
/-- Window 2: the bias row, resident. -/
theorem foundA_2 {c : Dev nD} (dat : Dat τ (Elt F) Unit ℕ (UR sig nD τ) ℕ cfg0 c) (hA : dat.A 2 = V c (Pipeline.arrRef spec0 2))
    (hafter : ∀ t, dat.after 2 t = blockA V c 2 t) (t : Fin cfg0.N) (d) : dat.before 2 t d = blockA V c 2 t :=
  (dat.before_in_eq_fetched 2 rfl (fun _ => rfl) (fun _ _ _ => rfl) (fun t => by rw [hafter]; unfold Dat.blockOf blockA; rw [hA]; try rfl) t d).trans
    (by unfold Dat.fetched Dat.blockOf blockA; rw [hA]; try rfl)

/-! ## The whole-buffer rectangles the body loads and stores through -/

abbrev rCol : Rect S1024x1 := Rect.unit (s := S1024x1) ![0, 0] S1024x1.size inb_S1024x1_S1024x1_0_0
abbrev rRow : Rect S1x64 := Rect.unit (s := S1x64) ![0, 0] S1x64.size inb_S1x64_S1x64_0_0
abbrev rTile : Rect S1024x64 := Rect.unit (s := S1024x64) ![0, 0] S1024x64.size inb_S1024x64_S1024x64_0_0

/-! ## What the body leaves in the two output buffers -/

/-- The affine rows `x · w + b` of one tile, as the one whole-buffer store leaves them. -/
def affineTile (x0 : Vec F S1024x1 .f32) (x1 : Vec F S1x64 .f32) (x2 : Vec F S1x64 .f32) : Vec F S1024x64 .f32 :=
  View.canon [⟨rTile, k0_pay1 (View.ld x0 rCol) (View.ld x1 rRow) (View.ld x2 rRow)⟩]

/-- The same rows divided by their floored Euclidean length. -/
def unitTile (x0 : Vec F S1024x1 .f32) (x1 : Vec F S1x64 .f32) (x2 : Vec F S1x64 .f32) : Vec F S1024x64 .f32 :=
  View.canon [⟨rTile, k0_pay2 (View.ld x0 rCol) (View.ld x1 rRow) (View.ld x2 rRow)⟩]

/-- One whole-buffer store covers the buffer. -/
theorem coverTile (p0 : Vec F S1024x64 .f32) (y : S1024x64.Idx) :
    ∃ pc ∈ ([⟨rTile, p0⟩] : List (View.Piece (Elt F) S1024x64 .f32)), y ∈ pc.1.set :=
  View.cover_of_tiled [⟨rTile, p0⟩] S1024x64.size (by rfl) y

/-! ## The body's triple -/

set_option maxHeartbeats 1000000 in
/-- Run on whole staging buffers — the three inputs at known contents, the two outputs at any — the body ends with
    the inputs untouched and the outputs at `affineTile` and `unitTile` of the inputs. -/
theorem bodyRunA (c : Dev nD) (E : Set ℕ) (i : grid0.Coords)
    (arg1 : Memref sig .tc .vmem S1024x1 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1024x64 .f32) (harg4 : arg4.IsWhole)
    (arg5 : Memref sig .tc .vmem S1024x64 .f32) (harg5 : arg5.IsWhole)
    (x0 : Vec F S1024x1 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (affineTile x0 x1 x2) ∗ owns (c : Thread nD τ) arg5 fullShare (unitTile x0 x1 x2)) -∗ K ⟨⟩))
      ⊢ wp frame (wpE (defs₀ (F := F)) Variants.none c none) E (cc0__proj_norm_kernel i arg1 harg1 arg2 harg2 arg3 harg3 arg4 harg4 arg5 harg5) K := by
  simp only [cc0__proj_norm_kernel_eq_skeleton]; unfold cc0__proj_norm_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverTile _)
  iexists _; isplitr
  swap; · iexact H4
  ipureintro
  exact View.read_writes_eq_canon _ _ _ (coverTile _)

/-! ## The pipeline's proof data -/

/-- The arrays as the region finds them; after the body at point `t` each input buffer at its block and the two
    output buffers at the affine and the normalised tile of the input blocks; the invariant is the scoped rest and
    the generator register, untouched; nothing owed; full shares. -/
def datA (c : Dev nD) : Dat τ (Elt F) Unit ℕ (UR sig nD τ) ℕ cfg0 c where
  A w := V c (Pipeline.arrRef spec0 w)
  after w t := match w with
    | ⟨0, _⟩ => blockA V c 0 t
    | ⟨1, _⟩ => blockA V c 1 t
    | ⟨2, _⟩ => blockA V c 2 t
    | ⟨3, _⟩ => affineTile (blockA V c 0 t) (blockA V c 1 t) (blockA V c 2 t)
    | ⟨4, _⟩ => unitTile (blockA V c 0 t) (blockA V c 1 t) (blockA V c 2 t)
  Φ _ := Pipeline.ΦA spec0 c
  q _ := fullShare
  owed _ := 0

theorem datA_A (c : Dev nD) (w : Fin cfg0.W) : (datA V c).A w = V c (Pipeline.arrRef spec0 w) := by
  dsimp only [datA]

theorem datA_after0 (c : Dev nD) (t : Fin cfg0.N) : (datA V c).after 0 t = blockA V c 0 t := by dsimp only [datA]
theorem datA_after1 (c : Dev nD) (t : Fin cfg0.N) : (datA V c).after 1 t = blockA V c 1 t := by dsimp only [datA]
theorem datA_after2 (c : Dev nD) (t : Fin cfg0.N) : (datA V c).after 2 t = blockA V c 2 t := by dsimp only [datA]
theorem datA_after3 (c : Dev nD) (t : Fin cfg0.N) :
    (datA V c).after 3 t = affineTile (blockA V c 0 t) (blockA V c 1 t) (blockA V c 2 t) := by dsimp only [datA]
theorem datA_after4 (c : Dev nD) (t : Fin cfg0.N) :
    (datA V c).after 4 t = unitTile (blockA V c 0 t) (blockA V c 1 t) (blockA V c 2 t) := by dsimp only [datA]

theorem datA_before0 (c : Dev nD) (t : Fin cfg0.N) (d) : (datA V c).before 0 t d = blockA V c 0 t :=
  foundA_0 V (datA V c) (datA_A V c 0) (datA_after0 V c) t d
theorem datA_before1 (c : Dev nD) (t : Fin cfg0.N) (d) : (datA V c).before 1 t d = blockA V c 1 t :=
  foundA_1 V (datA V c) (datA_A V c 1) (datA_after1 V c) t d
theorem datA_before2 (c : Dev nD) (t : Fin cfg0.N) (d) : (datA V c).before 2 t d = blockA V c 2 t :=
  foundA_2 V (datA V c) (datA_A V c 2) (datA_after2 V c) t d

/-! ## The body obligation at a generic point -/

/-- What the body is called with at point `t`, the windows one by one, -/
def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d)))

/-- and what it returns. -/
def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t)
    ∗ owns (c : Thread nD τ) (st0_4 t) fullShare ((datA V c).after 4 t))

/-- The body at any point: the input buffers hold their blocks, so `bodyRunA` applies; the invariant and what the
    core owes pass through unread. -/
theorem bodyAtA (c : Dev nD) (t : Fin cfg0.N) :
    preA V c t ⊢ wp frame (wpE (defs₀ (F := F)) Variants.none c none) Set.univ (bodyAt0 t) (fun _ => postA V c t) := by
  unfold preA postA bodyAt0
  simp only [datA_before0, datA_before1, datA_before2]
  rw [show (datA V c).Φ t.succ = (datA V c).Φ t.castSucc from rfl,
    show (datA V c).owesAt () t.succ = (datA V c).owesAt () t.castSucc from rfl,
    datA_after0, datA_after1, datA_after2, datA_after3, datA_after4]
  iintro ⟨HΦ, Ho, ⟨%d0, H0⟩, ⟨%d1, H1⟩, ⟨%d2, H2⟩, ⟨%d3, H3⟩, ⟨%d4, H4⟩⟩
  iapply (bodyRunA c Set.univ _ _ _ _ _ _ _ _ _ _ _ (blockA V c 0 t) (blockA V c 1 t) (blockA V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem obligationA (c : Dev nD) : BodyObligation (datA (F := F) V c) (defs₀ (F := F)) Variants.none () Set.univ := fun t => by
  rw [bigSep_W0, bigSep_W0]
  exact bodyAtA V c t

end Cert.Kernel.Hand

end
-- ==== Proof.Kernel.Region1.lean ====
/-
  The second kernel region: for each tile of 128 normalised rows, the inner products with all 8192 normalised rows,
  their absolute values, the least of them per row, and one minus that. Both input windows read the same array (one a
  moving tile of rows, the other the whole array, resident), so each holds half of it. This module describes, for
  any entry contents `V`, what every staging buffer holds after the body at every grid point, and derives the
  obligation the pipeline asks of the body.
-/
import proofs.«110632_j7215545057629_2_alg».proof.Proof.Gen.Kernel.Launch
import proofs.«110632_j7215545057629_2_alg».proof.Proof.Gen.Kernel.Skeleton
import proofs.«110632_j7215545057629_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows' arrays -/

/-- The block of window `w`'s array that grid point `t` addresses, read off the entry contents. -/
def blockB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose body leaves its block in place holds that block at every point, fetched there or not.
    Window 0: the moving tile of rows. -/
theorem foundB_0 {c : Dev nD} (dat : Dat τ (Elt F) Unit ℕ (UR sig nD τ) ℕ cfg1 c) (hA : dat.A 0 = V c (Pipeline.arrRef spec1 0))
    (hafter : ∀ t, dat.after 0 t = blockB V c 0 t) (t : Fin cfg1.N) (d) : dat.before 0 t d = blockB V c 0 t :=
  (dat.before_in_eq_fetched 0 rfl (fun _ => rfl) (fun _ _ _ => rfl) (fun t => by rw [hafter]; unfold Dat.blockOf blockB; rw [hA]; try rfl) t d).trans
    (by unfold Dat.fetched Dat.blockOf blockB; rw [hA]; try rfl)
/-- Window 1: all the rows, resident. -/
theorem foundB_1 {c : Dev nD} (dat : Dat τ (Elt F) Unit ℕ (UR sig nD τ) ℕ cfg1 c) (hA : dat.A 1 = V c (Pipeline.arrRef spec1 1))
    (hafter : ∀ t, dat.after 1 t = blockB V c 1 t) (t : Fin cfg1.N) (d) : dat.before 1 t d = blockB V c 1 t :=
  (dat.before_in_eq_fetched 1 rfl (fun _ => rfl) (fun _ _ _ => rfl) (fun t => by rw [hafter]; unfold Dat.blockOf blockB; rw [hA]; try rfl) t d).trans
    (by unfold Dat.fetched Dat.blockOf blockB; rw [hA]; try rfl)

/-! ## The whole-buffer rectangles the body loads and stores through -/

abbrev rRows : Rect S128x64 := Rect.unit (s := S128x64) ![0, 0] S128x64.size inb_S128x64_S128x64_0_0
abbrev rAll : Rect S8192x64 := Rect.unit (s := S8192x64) ![0, 0] S8192x64.size inb_S8192x64_S8192x64_0_0
abbrev rLoss : Rect S128x1 := Rect.unit (s := S128x1) ![0, 0] S128x1.size inb_S128x1_S128x1_0_0

/-! ## What the body leaves in the output buffer -/

/-- One minus the least absolute inner product, per row of the tile, as the one whole-buffer store leaves it. -/
def lossTile (x0 : Vec F S128x64 .f32) (x1 : Vec F S8192x64 .f32) : Vec F S128x1 .f32 :=
  View.canon [⟨rLoss, k1_pay1 (View.ld x0 rRows) (View.ld x1 rAll)⟩]

/-- One whole-buffer store covers the buffer. -/
theorem coverLoss (p0 : Vec F S128x1 .f32) (y : S128x1.Idx) :
    ∃ pc ∈ ([⟨rLoss, p0⟩] : List (View.Piece (Elt F) S128x1 .f32)), y ∈ pc.1.set :=
  View.cover_of_tiled [⟨rLoss, p0⟩] S128x1.size (by rfl) y

/-! ## The body's triple -/

set_option maxHeartbeats 1000000 in
/-- Run on whole staging buffers — the two inputs at known contents, the output at any — the body ends with the
    inputs untouched and the output at `lossTile` of the inputs. -/
theorem bodyRunB (c : Dev nD) (E : Set ℕ) (i : grid1.Coords)
    (arg1 : Memref sig .tc .vmem S128x64 .f32) (harg1 : arg1.IsWhole) (arg2 : Memref sig .tc .vmem S8192x64 .f32) (harg2 : arg2.IsWhole)
    (arg3 : Memref sig .tc .vmem S128x1 .f32) (harg3 : arg3.IsWhole)
    (x0 : Vec F S128x64 .f32) (x1 : Vec F S8192x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (lossTile x0 x1)) -∗ K ⟨⟩))
      ⊢ wp frame (wpE (defs₀ (F := F)) Variants.none c none) E (cc1__pairwise_kernel i arg1 harg1 arg2 harg2 arg3 harg3) K := by
  simp only [cc1__pairwise_kernel_eq_skeleton]; unfold cc1__pairwise_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverLoss _)

/-! ## The pipeline's proof data -/

/-- The arrays as the region finds them; after the body at point `t` each input buffer at its block and the output
    buffer at `lossTile` of the input blocks; the invariant is the scoped rest and the generator register; nothing
    owed; the two input windows each hold half of the one array they both read. -/
def datB (c : Dev nD) : Dat τ (Elt F) Unit ℕ (UR sig nD τ) ℕ cfg1 c where
  A w := V c (Pipeline.arrRef spec1 w)
  after w t := match w with
    | ⟨0, _⟩ => blockB V c 0 t
    | ⟨1, _⟩ => blockB V c 1 t
    | ⟨2, _⟩ => lossTile (blockB V c 0 t) (blockB V c 1 t)
  Φ _ := Pipeline.ΦA spec1 c
  q w := match w with
    | ⟨0, _⟩ => fullShare.left
    | ⟨1, _⟩ => fullShare.right
    | ⟨2, _⟩ => fullShare
  owed _ := 0

theorem datB_A (c : Dev nD) (w : Fin cfg1.W) : (datB V c).A w = V c (Pipeline.arrRef spec1 w) := by
  dsimp only [datB]

theorem datB_after0 (c : Dev nD) (t : Fin cfg1.N) : (datB V c).after 0 t = blockB V c 0 t := by dsimp only [datB]
theorem datB_after1 (c : Dev nD) (t : Fin cfg1.N) : (datB V c).after 1 t = blockB V c 1 t := by dsimp only [datB]
theorem datB_after2 (c : Dev nD) (t : Fin cfg1.N) :
    (datB V c).after 2 t = lossTile (blockB V c 0 t) (blockB V c 1 t) := by dsimp only [datB]

theorem datB_before0 (c : Dev nD) (t : Fin cfg1.N) (d) : (datB V c).before 0 t d = blockB V c 0 t :=
  foundB_0 V (datB V c) (datB_A V c 0) (datB_after0 V c) t d
theorem datB_before1 (c : Dev nD) (t : Fin cfg1.N) (d) : (datB V c).before 1 t d = blockB V c 1 t :=
  foundB_1 V (datB V c) (datB_A V c 1) (datB_after1 V c) t d

/-! ## The body obligation at a generic point -/

/-- What the body is called with at point `t`, the windows one by one, -/
def preB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d)))

/-- and what it returns. -/
def postB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t))

/-- The body at any point: the input buffers hold their blocks, so `bodyRunB` applies; the invariant and what the
    core owes pass through unread. -/
theorem bodyAtB (c : Dev nD) (t : Fin cfg1.N) :
    preB V c t ⊢ wp frame (wpE (defs₀ (F := F)) Variants.none c none) Set.univ (bodyAt1 t) (fun _ => postB V c t) := by
  unfold preB postB bodyAt1
  simp only [datB_before0, datB_before1]
  rw [show (datB V c).Φ t.succ = (datB V c).Φ t.castSucc from rfl,
    show (datB V c).owesAt () t.succ = (datB V c).owesAt () t.castSucc from rfl,
    datB_after0, datB_after1, datB_after2]
  iintro ⟨HΦ, Ho, ⟨%d0, H0⟩, ⟨%d1, H1⟩, ⟨%d2, H2⟩⟩
  iapply (bodyRunB c Set.univ _ _ _ _ _ _ _ (blockB V c 0 t) (blockB V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem obligationB (c : Dev nD) : BodyObligation (datB (F := F) V c) (defs₀ (F := F)) Variants.none () Set.univ := fun t => by
  rw [bigSep_W1, bigSep_W1]
  exact bodyAtB V c t

end Cert.Kernel.Hand

end
-- ==== Proof.Kernel.Shares.lean ====
/-
  Two input windows of the second region read one array. Between regions that array is held whole; at the region's
  entry it is split into two halves, one per window, and at the exit the halves are joined again (an input array
  is never written, so both halves still hold the entry contents). This module states the split and the join over
  the core's unscoped buffers.
-/
import proofs.«110632_j7215545057629_2_alg».proof.Proof.Kernel.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the second region's windows: the normalised rows and the per-row losses. -/
theorem arrBufsB_eq (c : Dev nD) (V' : (b : Ref sig .tc) → Buf (Elt F) ((c : Thread nD τ).loc b)) :
    (Pipeline.arrBufs spec1 c V' : sProp 𝕄)
      = iprop((((c : Thread nD τ).loc main_v1_1) ↦{fullShare} V' main_v1_1) ∗ (((c : Thread nD τ).loc main_v2) ↦{fullShare} V' main_v2)) := by
  unfold Pipeline.arrBufs
  rw [show (Finset.univ.image (Pipeline.arrRef spec1)) = {main_v1_1, main_v2} from by decide, bigSep_insert (by decide), bigSep_singleton]
  rfl

/-- The region's arrays as the proof data holds them: the shared array twice, at the two halves, and the output whole. -/
theorem arraysB_eq (c : Dev nD) (G : (w : Fin cfg1.W) → Buf (Elt F) ((cfg1.win w).arr.view.loc (c : Thread nD τ))) :
    (datB V c).arrays G
      = iprop((((c : Thread nD τ).loc main_v1_1) ↦{fullShare.left} G 0) ∗ (((c : Thread nD τ).loc main_v1_1) ↦{fullShare.right} G 1)
          ∗ (((c : Thread nD τ).loc main_v2) ↦{fullShare} G 2)) := by
  unfold Dat.arrays
  rw [bigSep_W1, (arr_whole1 0).set_eq_univ, (arr_whole1 2).set_eq_univ]
  rfl

/-- ENTRY: the core's unscoped buffers at contents `V` are the region's arrays at those contents and the rest. -/
theorem splitB (c : Dev nD) :
    (unscopedBufs c (V c) : sProp 𝕄)
      ⊢ iprop((datB V c).arrays (fun w => V c (Pipeline.arrRef spec1 w)) ∗ Pipeline.unscopedRest spec1 c (V c)) := by
  rw [Pipeline.unscopedBufs_split₀ (fun _ : Fin 1 => cfg1) 0 winFacts₀1.arr_unscoped c (V c), arrBufsB_eq, arraysB_eq]
  iintro ⟨⟨Hx, Ho⟩, Hr⟩
  ihave Hx := (pointsTo_share (PosShare.mem_left_op_right fullShare)).1 $$ Hx
  icases Hx with ⟨Hl, Hrr⟩
  isplitr [Hr]
  · isplitl [Hl]; · iexact Hl
    isplitl [Hrr]; · iexact Hrr
    iexact Ho
  iexact Hr

/-- EXIT: the region's arrays — the shared one at the same contents `x` in both halves, the output at `y` — and the
    rest at `V` are the core's unscoped buffers at any contents `V'` that have `x` and `y` there and agree with `V` elsewhere. -/
theorem joinB (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v1_1) (h1 : G 1 = V' main_v1_1) (h2 : G 2 = V' main_v2)
    (hrest : ∀ b, b ∉ Finset.univ.image (Pipeline.arrRef spec1) → V' b = V c b) :
    iprop((datB V c).arrays G ∗ Pipeline.unscopedRest spec1 c (V c)) ⊢ (unscopedBufs c V' : sProp 𝕄) := by
  rw [Pipeline.unscopedBufs_split₀ (fun _ : Fin 1 => cfg1) 0 winFacts₀1.arr_unscoped c V', arrBufsB_eq, arraysB_eq, h0, h1, h2]
  have hr : (Pipeline.unscopedRest spec1 c (V c) : sProp 𝕄) = Pipeline.unscopedRest spec1 c V' := by
    unfold Pipeline.unscopedRest
    exact bigSep_congr fun b hb => by rw [hrest b (Finset.mem_sdiff.mp hb).2]
  rw [hr]
  iintro ⟨⟨Hl, Hrr, Ho⟩, Hr⟩
  isplitr [Hr]
  · isplitr [Ho]
    · iapply (pointsTo_share (PosShare.mem_left_op_right fullShare)).2
      isplitl [Hl] <;> iassumption
    iexact Ho
  iexact Hr

end Cert.Kernel.Hand

end
-- ==== Proof.Kernel.MainRun.lean ====
/-
  The whole program, from launch to return: a reshape of the bias on the host, the first kernel region, the second
  kernel region, and seven host operations that average the per-row losses and negate the mean. This module names the
  contents of every unscoped buffer at each boundary between those four stretches (a fold from the launch memory),
  proves that every weakly fair execution terminates without a fault, and that the final memory holds exactly the
  last boundary's contents in every unscoped buffer.
-/
import proofs.«110632_j7215545057629_2_alg».proof.Proof.Kernel.Region0
import proofs.«110632_j7215545057629_2_alg».proof.Proof.Kernel.Shares

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev atLaunch : Dev nD → Valuation τ sig (Elt F) := fun c b => (s₀ m ρ).mem ((c : Dev nD), b)
/-- After the bias is reshaped to a row: the first region's entry. -/
abbrev atEntryA : Dev nD → Valuation τ sig (Elt F) := fun c => StableHlo.after hostOps0 (atLaunch m ρ c)
abbrev entryA : (c : Dev nD) → (b : Ref sig .tc) → Buf (Elt F) ((c : Thread nD τ).loc b) := fun c b => atEntryA m ρ c b
/-- At the first region's exit: its arrays at what its write-backs leave, every other buffer as entered. -/
def atExitA (c : Dev nD) : Valuation τ sig (Elt F) :=
  Pipeline.withArrays spec0 c (atEntryA m ρ c) fun w => (datA (entryA m ρ) c).arrAt w cfg0.N
theorem atExitA_arr (c : Dev nD) (w : Fin cfg0.W) :
    atExitA m ρ c (Proc.devRef .tc (Pipeline.arrRef spec0 w)) = (datA (entryA m ρ) c).arrAt w cfg0.N := by
  unfold atExitA; exact Pipeline.withArrays_arr spec0 launch0.win.arr_inj c _ _ w
theorem atExitA_of_ne (c : Dev nD) (b : Ref sig .tc) (hb : ∀ w, Pipeline.arrRef spec0 w ≠ b) :
    atExitA m ρ c (Proc.devRef .tc b) = atEntryA m ρ c (Proc.devRef .tc b) := by
  unfold atExitA; exact Pipeline.withArrays_of_ne spec0 c _ _ b hb
/-- The same, read at the TensorCore's references: the second region's entry (no host operation stands between). -/
abbrev entryB : (c : Dev nD) → (b : Ref sig .tc) → Buf (Elt F) ((c : Thread nD τ).loc b) := fun c b => atExitA m ρ c b
theorem exitA_arr (c : Dev nD) (w : Fin cfg0.W) : (datA (entryA m ρ) c).arrAt w cfg0.N = entryB m ρ c (Pipeline.arrRef spec0 w) :=
  (atExitA_arr m ρ c w).symm
theorem exitA_rest (c : Dev nD) : ∀ b, b ∉ Finset.univ.image (Pipeline.arrRef spec0) → entryB m ρ c b = entryA m ρ c b :=
  fun b hb => atExitA_of_ne m ρ c b fun w e => hb (Finset.mem_image.mpr ⟨w, Finset.mem_univ _, e⟩)

/-- At the second region's exit: the per-row losses at what its write-backs leave, every other buffer as entered. -/
def atExitB (c : Dev nD) : Valuation τ sig (Elt F) :=
  Function.update (atExitA m ρ c) (Proc.devRef .tc main_v2) ((datB (entryB m ρ) c).arrAt 2 cfg1.N)
abbrev exitB : (c : Dev nD) → (b : Ref sig .tc) → Buf (Elt F) ((c : Thread nD τ).loc b) := fun c b => atExitB m ρ c b
theorem exitB_loss (c : Dev nD) : exitB m ρ c main_v2 = (datB (entryB m ρ) c).arrAt 2 cfg1.N := by
  show atExitB m ρ c (Proc.devRef .tc main_v2) = _
  unfold atExitB; exact Function.update_self ..
theorem exitB_of_ne (c : Dev nD) (b : Ref sig .tc) (hb : b ≠ main_v2) : exitB m ρ c b = entryB m ρ c b := by
  show atExitB m ρ c (Proc.devRef .tc b) = atExitA m ρ c (Proc.devRef .tc b)
  unfold atExitB; exact Function.update_of_ne (StableHlo.devRef_ne_of_ne hb) ..
/-- After the host's closing operations: the end. -/
abbrev atEnd : Dev nD → Valuation τ sig (Elt F) := fun c => StableHlo.after hostOps2 (atExitB m ρ c)

/-! ## The proof data family and the thread state -/

abbrev noTables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) noTables p) c
  | ⟨0, _⟩ => fun c => datA (entryA m ρ) c
  | ⟨1, _⟩ => fun c => datB (entryB m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noAlloc : (hostOps0 : List (HloOp τ sig (Elt F))).Forall fun op => op.fresh = ∅ := by
  simp only [List.Forall]; repeat' constructor
theorem hostOps2_noAlloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first region: entered with every unscoped buffer at `atEntryA`, left with them at `atExitA`. -/
def regA : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligationA (entryA m ρ) c).loose
  hwaits := Pipeline.hwaits_of_owed_zero _ _ _ _ L lv 0 fun _ _ => rfl
  pre c := iprop(StableHlo.held (c : Thread nD τ) (Pipeline.ucRefs τ sig) (atEntryA m ρ c) ∗ R c)
  post c := iprop(StableHlo.held (c : Thread nD τ) (Pipeline.ucRefs τ sig) (atExitA m ρ c) ∗ R c)
  X c := iprop(∃ r, prngReg c r)
  Y c := iprop(∃ r, prngReg c r)
  Z c := Pipeline.unscopedRest (Ix := Unit) (Name := ℕ) (U := UR sig nD τ) (Lvl := ℕ) spec0 c (entryA m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (entryA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (entryA m ρ c) (entryB m ρ c) ((pdats m ρ 0 c).arrAt · cfg0.N) (exitA_arr m ρ c) (exitA_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state the second region leaves: every unscoped buffer at `atExitB`, the generator register, nothing owed. -/
abbrev afterB (c : Dev nD) : sProp 𝕄 := iprop(StableHlo.held (c : Thread nD τ) (Pipeline.ucRefs τ sig) (atExitB m ρ c) ∗ R c)

set_option backward.isDefEq.respectTransparency.types false in
/-- The second region: entered with every unscoped buffer at `atExitA`, left with them at `atExitB`. The array both
    input windows read is split in two halves at the entry and joined at the exit. -/
def regB : Pipeline.RegionSeg (pcfgs (F := F)) noTables (pdats m ρ) () defs₀ 𝒱₀ L lv 1 where
  win := winFacts₀1
  block_pos := block_pos1
  stage_whole := stage_whole1
  K := PEmpty
  osem k := k.elim
  ho := Pipeline.OwnSemFacts.none _
  hbody c := (obligationB (entryB m ρ) c).loose
  hwaits := Pipeline.hwaits_of_owed_zero _ _ _ _ L lv 1 fun _ _ => rfl
  pre c := iprop(StableHlo.held (c : Thread nD τ) (Pipeline.ucRefs τ sig) (atExitA m ρ c) ∗ R c)
  post c := afterB m ρ c
  X c := iprop(∃ r, prngReg c r)
  Y c := iprop(∃ r, prngReg c r)
  Z c := Pipeline.unscopedRest (Ix := Unit) (Name := ℕ) (U := UR sig nD τ) (Lvl := ℕ) spec1 c (entryB m ρ c)
  hentry c := by
    rw [Pipeline.ownSems0_none]
    have hsplit := splitB (entryB m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (entryB m ρ c))
        ⊢ (unscopedBufs c (exitB m ρ c) : sProp 𝕄) := joinB (entryB m ρ) c (exitB m ρ c) ((datB (entryB m ρ) c).arrAt · cfg1.N)
      (((datB (entryB m ρ) c).arrAt_in 0 rfl _).trans ((datB_A (entryB m ρ) c 0).trans (exitB_of_ne m ρ c main_v1_1 (by decide)).symm))
      (((datB (entryB m ρ) c).arrAt_in 1 rfl _).trans ((datB_A (entryB m ρ) c 1).trans (exitB_of_ne m ρ c main_v1_1 (by decide)).symm))
      (exitB_loss m ρ c).symm
      (fun b hb => exitB_of_ne m ρ c b fun e => hb (e ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) noTables (pdats m ρ) () defs₀ 𝒱₀ L lv) :=
  [ .host (hseg hostOps0 hostOps0_sub hostOps0_noAlloc (atLaunch m ρ)),
    .region (regA m ρ),
    .region (regB m ρ),
    .host (hseg hostOps2 hostOps2_sub hostOps2_noAlloc (atExitB m ρ)) ]
theorem main_run (c : Dev nD) : main (F := F) c = Pipeline.Seg.run (segs m ρ) := (main_chain c).trans (by chain_rfl)

/-- The last thread state without what the core owes. -/
abbrev atReturn (c : Dev nD) : sProp 𝕄 := iprop(StableHlo.held (c : Thread nD τ) (Pipeline.ucRefs τ sig) (atEnd m ρ c) ∗ ∃ r, prngReg c r)

/-- The closing host stretch leaves the last thread state beside what the core owes: nothing. -/
theorem lastChain (c : Dev nD) :
    iprop(StableHlo.held (c : Thread nD τ) (Pipeline.ucRefs τ sig) (atEnd m ρ c) ∗ R (F := F) c)
      ⊢ iprop(atReturn m ρ c ∗ ∃ W, owes (c : Thread nD τ) (0 : CellTallies nD τ sig Unit) W) := by
  iintro ⟨Hh, Hp, HO⟩
  isplitr [HO]
  · isplitl [Hh]; · iexact Hh
    iexact Hp
  iexact HO

set_option backward.isDefEq.respectTransparency.types false in
/-- THE RUN. From any memory with zero counters every weakly fair execution of the program terminates, nothing
    faulting, and the final memory holds `atEnd` in every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := atReturn m ρ)
    (hch := ⟨fun _ => .rfl, fun _ => .rfl, fun _ => .rfl, fun _ => .rfl, fun c => lastChain m ρ c⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h c => h c)

end Cert.Kernel.Hand

end
-- ==== Proof.Kernel.Frame.lean ====
/-
  The frame: from any memory with zero counters every weakly fair execution of the program terminates, nothing
  faulting, and the three argument arrays end as launched. No host operation writes an argument; the first region reads
  two of them through input windows, which are never written back, and bypasses the third; the second region touches none.
-/
import proofs.«110632_j7215545057629_2_alg».proof.Proof.Kernel.MainRun

noncomputable section

namespace Cert.Kernel.Hand

open Idealize.ShloMosaic Idealize.ShloMosaic.TcCoe Idealize.SL.Sem
open Idealize.ShloMosaic.Pipeline (Dat)
open Cert.Kernel Cert.Kernel.Gen

variable {F : FTy → Type} [FloatOps F]
variable (m : (ℓ : Loc nD τ sig) → Buf (Elt F) ℓ) (ρ : Dev nD → PrngReg)

/-! ## The first region's entry -/

/-- The host's one operation before the first region writes no argument, -/
theorem entryA_arg0 (c : Dev nD) : entryA m ρ c main_arg0 = m ((c : Thread nD τ).loc main_arg0) := by
  show StableHlo.after hostOps0 (fun b => m (c, b)) (Proc.devRef .tc main_arg0) = _
  after_results
theorem entryA_arg1 (c : Dev nD) : entryA m ρ c main_arg1 = m ((c : Thread nD τ).loc main_arg1) := by
  show StableHlo.after hostOps0 (fun b => m (c, b)) (Proc.devRef .tc main_arg1) = _
  after_results
theorem entryA_arg2 (c : Dev nD) : entryA m ρ c main_arg2 = m ((c : Thread nD τ).loc main_arg2) := by
  show StableHlo.after hostOps0 (fun b => m (c, b)) (Proc.devRef .tc main_arg2) = _
  after_results
/-- and leaves the bias laid out as a row. -/
theorem entryA_biasRow (c : Dev nD) :
    entryA m ρ c main_v0 = shapeCast S1x64 (m ((c : Thread nD τ).loc main_arg2)) shapeCasts_S64_S1x64 := by
  show StableHlo.after hostOps0 (fun b => m (c, b)) (Proc.devRef .tc main_v0) = _
  after_results
  rfl

/-! ## The end -/

theorem atEnd_arg0 (c : Dev nD) : atEnd m ρ c (Proc.devRef .tc main_arg0) = m ((c : Thread nD τ).loc main_arg0) := by
  show StableHlo.after hostOps2 (atExitB m ρ c) (Proc.devRef .tc main_arg0) = _
  after_results
  refine (exitB_of_ne m ρ c main_arg0 (by decide)).trans ?_
  show entryB m ρ c (Pipeline.arrRef spec0 0) = _
  exact (exitA_arr m ρ c 0).symm.trans (((datA (entryA m ρ) c).arrAt_in 0 rfl _).trans ((datA_A (entryA m ρ) c 0).trans (entryA_arg0 m ρ c)))
theorem atEnd_arg1 (c : Dev nD) : atEnd m ρ c (Proc.devRef .tc main_arg1) = m ((c : Thread nD τ).loc main_arg1) := by
  show StableHlo.after hostOps2 (atExitB m ρ c) (Proc.devRef .tc main_arg1) = _
  after_results
  refine (exitB_of_ne m ρ c main_arg1 (by decide)).trans ?_
  show entryB m ρ c (Pipeline.arrRef spec0 1) = _
  exact (exitA_arr m ρ c 1).symm.trans (((datA (entryA m ρ) c).arrAt_in 1 rfl _).trans ((datA_A (entryA m ρ) c 1).trans (entryA_arg1 m ρ c)))
theorem atEnd_arg2 (c : Dev nD) : atEnd m ρ c (Proc.devRef .tc main_arg2) = m ((c : Thread nD τ).loc main_arg2) := by
  show StableHlo.after hostOps2 (atExitB m ρ c) (Proc.devRef .tc main_arg2) = _
  after_results
  refine (exitB_of_ne m ρ c main_arg2 (by decide)).trans ?_
  exact (exitA_rest m ρ c main_arg2 (by decide)).trans (entryA_arg2 m ρ c)

/-- THE FRAME, at any instance of the float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (atEnd_arg0 m ρ c),
     (h c _ (mem_uc main_arg1 (by decide))).trans (atEnd_arg1 m ρ c),
     (h c _ (mem_uc main_arg2 (by decide))).trans (atEnd_arg2 m ρ c)⟩)
    (run_all m ρ)

end Cert.Kernel.Hand

end
-- ==== Proof.KernelIdeal.Region0.lean ====
/-
  The first kernel region: rows of the input column are scaled by the weight row, shifted by the bias row, and
  normalised by their Euclidean length (floored at a small constant). This module describes, for any contents
  `V` the unscoped buffers hold when the region is entered, what every staging buffer holds after the body at
  every grid point: an input window keeps its block, the first output window holds the affine rows, the second
  the normalised rows, both as functions of the three input blocks alone. From that it derives the obligation
  the pipeline asks of the body at each point.
-/
import proofs.«110632_j7215545057629_2_alg».proof.Proof.Gen.KernelIdeal.Launch
import proofs.«110632_j7215545057629_2_alg».proof.Proof.Gen.KernelIdeal.Skeleton
import proofs.«110632_j7215545057629_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows' arrays -/

/-- The block of window `w`'s array that grid point `t` addresses, read off the entry contents. -/
def blockA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds that block at every point, whether or not the
    pipeline fetched it there (an unfetched window's block index has not moved). Window 0: the column block. -/
theorem foundA_0 {c : Dev nD} (dat : Dat τ (Elt F) Unit ℕ (UR sig nD τ) ℕ cfg0 c) (hA : dat.A 0 = V c (Pipeline.arrRef spec0 0))
    (hafter : ∀ t, dat.after 0 t = blockA V c 0 t) (t : Fin cfg0.N) (d) : dat.before 0 t d = blockA V c 0 t :=
  (dat.before_in_eq_fetched 0 rfl (fun _ => rfl) (fun _ _ _ => rfl) (fun t => by rw [hafter]; unfold Dat.blockOf blockA; rw [hA]; try rfl) t d).trans
    (by unfold Dat.fetched Dat.blockOf blockA; rw [hA]; try rfl)
/-- Window 1: the weight row, resident. -/
theorem foundA_1 {c : Dev nD} (dat : Dat τ (Elt F) Unit ℕ (UR sig nD τ) ℕ cfg0 c) (hA : dat.A 1 = V c (Pipeline.arrRef spec0 1))
    (hafter : ∀ t, dat.after 1 t = blockA V c 1 t) (t : Fin cfg0.N) (d) : dat.before 1 t d = blockA V c 1 t :=
  (dat.before_in_eq_fetched 1 rfl (fun _ => rfl) (fun _ _ _ => rfl) (fun t => by rw [hafter]; unfold Dat.blockOf blockA; rw [hA]; try rfl) t d).trans
    (by unfold Dat.fetched Dat.blockOf blockA; rw [hA]; try rfl)
/-- Window 2: the bias row, resident. -/
theorem foundA_2 {c : Dev nD} (dat : Dat τ (Elt F) Unit ℕ (UR sig nD τ) ℕ cfg0 c) (hA : dat.A 2 = V c (Pipeline.arrRef spec0 2))
    (hafter : ∀ t, dat.after 2 t = blockA V c 2 t) (t : Fin cfg0.N) (d) : dat.before 2 t d = blockA V c 2 t :=
  (dat.before_in_eq_fetched 2 rfl (fun _ => rfl) (fun _ _ _ => rfl) (fun t => by rw [hafter]; unfold Dat.blockOf blockA; rw [hA]; try rfl) t d).trans
    (by unfold Dat.fetched Dat.blockOf blockA; rw [hA]; try rfl)

/-! ## The whole-buffer rectangles the body loads and stores through -/

abbrev rCol : Rect S1024x1 := Rect.unit (s := S1024x1) ![0, 0] S1024x1.size inb_S1024x1_S1024x1_0_0
abbrev rRow : Rect S1x64 := Rect.unit (s := S1x64) ![0, 0] S1x64.size inb_S1x64_S1x64_0_0
abbrev rTile : Rect S1024x64 := Rect.unit (s := S1024x64) ![0, 0] S1024x64.size inb_S1024x64_S1024x64_0_0

/-! ## What the body leaves in the two output buffers -/

/-- The affine rows `x · w + b` of one tile, as the one whole-buffer store leaves them. -/
def affineTile (x0 : Vec F S1024x1 .f32) (x1 : Vec F S1x64 .f32) (x2 : Vec F S1x64 .f32) : Vec F S1024x64 .f32 :=
  View.canon [⟨rTile, k0_pay1 (View.ld x0 rCol) (View.ld x1 rRow) (View.ld x2 rRow)⟩]

/-- The same rows divided by their floored Euclidean length. -/
def unitTile (x0 : Vec F S1024x1 .f32) (x1 : Vec F S1x64 .f32) (x2 : Vec F S1x64 .f32) : Vec F S1024x64 .f32 :=
  View.canon [⟨rTile, k0_pay2 (View.ld x0 rCol) (View.ld x1 rRow) (View.ld x2 rRow)⟩]

/-- One whole-buffer store covers the buffer. -/
theorem coverTile (p0 : Vec F S1024x64 .f32) (y : S1024x64.Idx) :
    ∃ pc ∈ ([⟨rTile, p0⟩] : List (View.Piece (Elt F) S1024x64 .f32)), y ∈ pc.1.set :=
  View.cover_of_tiled [⟨rTile, p0⟩] S1024x64.size (by rfl) y

/-! ## The body's triple -/

set_option maxHeartbeats 1000000 in
/-- Run on whole staging buffers — the three inputs at known contents, the two outputs at any — the body ends with
    the inputs untouched and the outputs at `affineTile` and `unitTile` of the inputs. -/
theorem bodyRunA (c : Dev nD) (E : Set ℕ) (i : grid0.Coords)
    (arg1 : Memref sig .tc .vmem S1024x1 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1024x64 .f32) (harg4 : arg4.IsWhole)
    (arg5 : Memref sig .tc .vmem S1024x64 .f32) (harg5 : arg5.IsWhole)
    (x0 : Vec F S1024x1 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (affineTile x0 x1 x2) ∗ owns (c : Thread nD τ) arg5 fullShare (unitTile x0 x1 x2)) -∗ K ⟨⟩))
      ⊢ wp frame (wpE (defs₀ (F := F)) Variants.none c none) E (cc0__proj_norm_kernel i arg1 harg1 arg2 harg2 arg3 harg3 arg4 harg4 arg5 harg5) K := by
  simp only [cc0__proj_norm_kernel_eq_skeleton]; unfold cc0__proj_norm_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverTile _)
  iexists _; isplitr
  swap; · iexact H4
  ipureintro
  exact View.read_writes_eq_canon _ _ _ (coverTile _)

/-! ## The pipeline's proof data -/

/-- The arrays as the region finds them; after the body at point `t` each input buffer at its block and the two
    output buffers at the affine and the normalised tile of the input blocks; the invariant is the scoped rest and
    the generator register, untouched; nothing owed; full shares. -/
def datA (c : Dev nD) : Dat τ (Elt F) Unit ℕ (UR sig nD τ) ℕ cfg0 c where
  A w := V c (Pipeline.arrRef spec0 w)
  after w t := match w with
    | ⟨0, _⟩ => blockA V c 0 t
    | ⟨1, _⟩ => blockA V c 1 t
    | ⟨2, _⟩ => blockA V c 2 t
    | ⟨3, _⟩ => affineTile (blockA V c 0 t) (blockA V c 1 t) (blockA V c 2 t)
    | ⟨4, _⟩ => unitTile (blockA V c 0 t) (blockA V c 1 t) (blockA V c 2 t)
  Φ _ := Pipeline.ΦA spec0 c
  q _ := fullShare
  owed _ := 0

theorem datA_A (c : Dev nD) (w : Fin cfg0.W) : (datA V c).A w = V c (Pipeline.arrRef spec0 w) := by
  dsimp only [datA]

theorem datA_after0 (c : Dev nD) (t : Fin cfg0.N) : (datA V c).after 0 t = blockA V c 0 t := by dsimp only [datA]
theorem datA_after1 (c : Dev nD) (t : Fin cfg0.N) : (datA V c).after 1 t = blockA V c 1 t := by dsimp only [datA]
theorem datA_after2 (c : Dev nD) (t : Fin cfg0.N) : (datA V c).after 2 t = blockA V c 2 t := by dsimp only [datA]
theorem datA_after3 (c : Dev nD) (t : Fin cfg0.N) :
    (datA V c).after 3 t = affineTile (blockA V c 0 t) (blockA V c 1 t) (blockA V c 2 t) := by dsimp only [datA]
theorem datA_after4 (c : Dev nD) (t : Fin cfg0.N) :
    (datA V c).after 4 t = unitTile (blockA V c 0 t) (blockA V c 1 t) (blockA V c 2 t) := by dsimp only [datA]

theorem datA_before0 (c : Dev nD) (t : Fin cfg0.N) (d) : (datA V c).before 0 t d = blockA V c 0 t :=
  foundA_0 V (datA V c) (datA_A V c 0) (datA_after0 V c) t d
theorem datA_before1 (c : Dev nD) (t : Fin cfg0.N) (d) : (datA V c).before 1 t d = blockA V c 1 t :=
  foundA_1 V (datA V c) (datA_A V c 1) (datA_after1 V c) t d
theorem datA_before2 (c : Dev nD) (t : Fin cfg0.N) (d) : (datA V c).before 2 t d = blockA V c 2 t :=
  foundA_2 V (datA V c) (datA_A V c 2) (datA_after2 V c) t d

/-! ## The body obligation at a generic point -/

/-- What the body is called with at point `t`, the windows one by one, -/
def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d)))

/-- and what it returns. -/
def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t)
    ∗ owns (c : Thread nD τ) (st0_4 t) fullShare ((datA V c).after 4 t))

/-- The body at any point: the input buffers hold their blocks, so `bodyRunA` applies; the invariant and what the
    core owes pass through unread. -/
theorem bodyAtA (c : Dev nD) (t : Fin cfg0.N) :
    preA V c t ⊢ wp frame (wpE (defs₀ (F := F)) Variants.none c none) Set.univ (bodyAt0 t) (fun _ => postA V c t) := by
  unfold preA postA bodyAt0
  simp only [datA_before0, datA_before1, datA_before2]
  rw [show (datA V c).Φ t.succ = (datA V c).Φ t.castSucc from rfl,
    show (datA V c).owesAt () t.succ = (datA V c).owesAt () t.castSucc from rfl,
    datA_after0, datA_after1, datA_after2, datA_after3, datA_after4]
  iintro ⟨HΦ, Ho, ⟨%d0, H0⟩, ⟨%d1, H1⟩, ⟨%d2, H2⟩, ⟨%d3, H3⟩, ⟨%d4, H4⟩⟩
  iapply (bodyRunA c Set.univ _ _ _ _ _ _ _ _ _ _ _ (blockA V c 0 t) (blockA V c 1 t) (blockA V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem obligationA (c : Dev nD) : BodyObligation (datA (F := F) V c) (defs₀ (F := F)) Variants.none () Set.univ := fun t => by
  rw [bigSep_W0, bigSep_W0]
  exact bodyAtA V c t

end Cert.KernelIdeal.Hand

end
-- ==== Proof.KernelIdeal.Region1.lean ====
/-
  The second kernel region: for each tile of 128 normalised rows, the inner products with all 8192 normalised rows,
  their absolute values, the least of them per row, and one minus that. Both input windows read the same array (one a
  moving tile of rows, the other the whole array, resident), so each holds half of it. This module describes, for
  any entry contents `V`, what every staging buffer holds after the body at every grid point, and derives the
  obligation the pipeline asks of the body.
-/
import proofs.«110632_j7215545057629_2_alg».proof.Proof.Gen.KernelIdeal.Launch
import proofs.«110632_j7215545057629_2_alg».proof.Proof.Gen.KernelIdeal.Skeleton
import proofs.«110632_j7215545057629_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows' arrays -/

/-- The block of window `w`'s array that grid point `t` addresses, read off the entry contents. -/
def blockB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose body leaves its block in place holds that block at every point, fetched there or not.
    Window 0: the moving tile of rows. -/
theorem foundB_0 {c : Dev nD} (dat : Dat τ (Elt F) Unit ℕ (UR sig nD τ) ℕ cfg1 c) (hA : dat.A 0 = V c (Pipeline.arrRef spec1 0))
    (hafter : ∀ t, dat.after 0 t = blockB V c 0 t) (t : Fin cfg1.N) (d) : dat.before 0 t d = blockB V c 0 t :=
  (dat.before_in_eq_fetched 0 rfl (fun _ => rfl) (fun _ _ _ => rfl) (fun t => by rw [hafter]; unfold Dat.blockOf blockB; rw [hA]; try rfl) t d).trans
    (by unfold Dat.fetched Dat.blockOf blockB; rw [hA]; try rfl)
/-- Window 1: all the rows, resident. -/
theorem foundB_1 {c : Dev nD} (dat : Dat τ (Elt F) Unit ℕ (UR sig nD τ) ℕ cfg1 c) (hA : dat.A 1 = V c (Pipeline.arrRef spec1 1))
    (hafter : ∀ t, dat.after 1 t = blockB V c 1 t) (t : Fin cfg1.N) (d) : dat.before 1 t d = blockB V c 1 t :=
  (dat.before_in_eq_fetched 1 rfl (fun _ => rfl) (fun _ _ _ => rfl) (fun t => by rw [hafter]; unfold Dat.blockOf blockB; rw [hA]; try rfl) t d).trans
    (by unfold Dat.fetched Dat.blockOf blockB; rw [hA]; try rfl)

/-! ## The whole-buffer rectangles the body loads and stores through -/

abbrev rRows : Rect S128x64 := Rect.unit (s := S128x64) ![0, 0] S128x64.size inb_S128x64_S128x64_0_0
abbrev rAll : Rect S8192x64 := Rect.unit (s := S8192x64) ![0, 0] S8192x64.size inb_S8192x64_S8192x64_0_0
abbrev rLoss : Rect S128x1 := Rect.unit (s := S128x1) ![0, 0] S128x1.size inb_S128x1_S128x1_0_0

/-! ## What the body leaves in the output buffer -/

/-- One minus the least absolute inner product, per row of the tile, as the one whole-buffer store leaves it. -/
def lossTile (x0 : Vec F S128x64 .f32) (x1 : Vec F S8192x64 .f32) : Vec F S128x1 .f32 :=
  View.canon [⟨rLoss, k1_pay1 (View.ld x0 rRows) (View.ld x1 rAll)⟩]

/-- One whole-buffer store covers the buffer. -/
theorem coverLoss (p0 : Vec F S128x1 .f32) (y : S128x1.Idx) :
    ∃ pc ∈ ([⟨rLoss, p0⟩] : List (View.Piece (Elt F) S128x1 .f32)), y ∈ pc.1.set :=
  View.cover_of_tiled [⟨rLoss, p0⟩] S128x1.size (by rfl) y

/-! ## The body's triple -/

set_option maxHeartbeats 1000000 in
/-- Run on whole staging buffers — the two inputs at known contents, the output at any — the body ends with the
    inputs untouched and the output at `lossTile` of the inputs. -/
theorem bodyRunB (c : Dev nD) (E : Set ℕ) (i : grid1.Coords)
    (arg1 : Memref sig .tc .vmem S128x64 .f32) (harg1 : arg1.IsWhole) (arg2 : Memref sig .tc .vmem S8192x64 .f32) (harg2 : arg2.IsWhole)
    (arg3 : Memref sig .tc .vmem S128x1 .f32) (harg3 : arg3.IsWhole)
    (x0 : Vec F S128x64 .f32) (x1 : Vec F S8192x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (lossTile x0 x1)) -∗ K ⟨⟩))
      ⊢ wp frame (wpE (defs₀ (F := F)) Variants.none c none) E (cc1__pairwise_kernel i arg1 harg1 arg2 harg2 arg3 harg3) K := by
  simp only [cc1__pairwise_kernel_eq_skeleton]; unfold cc1__pairwise_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverLoss _)

/-! ## The pipeline's proof data -/

/-- The arrays as the region finds them; after the body at point `t` each input buffer at its block and the output
    buffer at `lossTile` of the input blocks; the invariant is the scoped rest and the generator register; nothing
    owed; the two input windows each hold half of the one array they both read. -/
def datB (c : Dev nD) : Dat τ (Elt F) Unit ℕ (UR sig nD τ) ℕ cfg1 c where
  A w := V c (Pipeline.arrRef spec1 w)
  after w t := match w with
    | ⟨0, _⟩ => blockB V c 0 t
    | ⟨1, _⟩ => blockB V c 1 t
    | ⟨2, _⟩ => lossTile (blockB V c 0 t) (blockB V c 1 t)
  Φ _ := Pipeline.ΦA spec1 c
  q w := match w with
    | ⟨0, _⟩ => fullShare.left
    | ⟨1, _⟩ => fullShare.right
    | ⟨2, _⟩ => fullShare
  owed _ := 0

theorem datB_A (c : Dev nD) (w : Fin cfg1.W) : (datB V c).A w = V c (Pipeline.arrRef spec1 w) := by
  dsimp only [datB]

theorem datB_after0 (c : Dev nD) (t : Fin cfg1.N) : (datB V c).after 0 t = blockB V c 0 t := by dsimp only [datB]
theorem datB_after1 (c : Dev nD) (t : Fin cfg1.N) : (datB V c).after 1 t = blockB V c 1 t := by dsimp only [datB]
theorem datB_after2 (c : Dev nD) (t : Fin cfg1.N) :
    (datB V c).after 2 t = lossTile (blockB V c 0 t) (blockB V c 1 t) := by dsimp only [datB]

theorem datB_before0 (c : Dev nD) (t : Fin cfg1.N) (d) : (datB V c).before 0 t d = blockB V c 0 t :=
  foundB_0 V (datB V c) (datB_A V c 0) (datB_after0 V c) t d
theorem datB_before1 (c : Dev nD) (t : Fin cfg1.N) (d) : (datB V c).before 1 t d = blockB V c 1 t :=
  foundB_1 V (datB V c) (datB_A V c 1) (datB_after1 V c) t d

/-! ## The body obligation at a generic point -/

/-- What the body is called with at point `t`, the windows one by one, -/
def preB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d)))

/-- and what it returns. -/
def postB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t))

/-- The body at any point: the input buffers hold their blocks, so `bodyRunB` applies; the invariant and what the
    core owes pass through unread. -/
theorem bodyAtB (c : Dev nD) (t : Fin cfg1.N) :
    preB V c t ⊢ wp frame (wpE (defs₀ (F := F)) Variants.none c none) Set.univ (bodyAt1 t) (fun _ => postB V c t) := by
  unfold preB postB bodyAt1
  simp only [datB_before0, datB_before1]
  rw [show (datB V c).Φ t.succ = (datB V c).Φ t.castSucc from rfl,
    show (datB V c).owesAt () t.succ = (datB V c).owesAt () t.castSucc from rfl,
    datB_after0, datB_after1, datB_after2]
  iintro ⟨HΦ, Ho, ⟨%d0, H0⟩, ⟨%d1, H1⟩, ⟨%d2, H2⟩⟩
  iapply (bodyRunB c Set.univ _ _ _ _ _ _ _ (blockB V c 0 t) (blockB V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem obligationB (c : Dev nD) : BodyObligation (datB (F := F) V c) (defs₀ (F := F)) Variants.none () Set.univ := fun t => by
  rw [bigSep_W1, bigSep_W1]
  exact bodyAtB V c t

end Cert.KernelIdeal.Hand

end
-- ==== Proof.KernelIdeal.Shares.lean ====
/-
  Two input windows of the second region read one array. Between regions that array is held whole; at the region's
  entry it is split into two halves, one per window, and at the exit the halves are joined again (an input array
  is never written, so both halves still hold the entry contents). This module states the split and the join over
  the core's unscoped buffers.
-/
import proofs.«110632_j7215545057629_2_alg».proof.Proof.KernelIdeal.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the second region's windows: the normalised rows and the per-row losses. -/
theorem arrBufsB_eq (c : Dev nD) (V' : (b : Ref sig .tc) → Buf (Elt F) ((c : Thread nD τ).loc b)) :
    (Pipeline.arrBufs spec1 c V' : sProp 𝕄)
      = iprop((((c : Thread nD τ).loc main_v1_1) ↦{fullShare} V' main_v1_1) ∗ (((c : Thread nD τ).loc main_v2) ↦{fullShare} V' main_v2)) := by
  unfold Pipeline.arrBufs
  rw [show (Finset.univ.image (Pipeline.arrRef spec1)) = {main_v1_1, main_v2} from by decide, bigSep_insert (by decide), bigSep_singleton]
  rfl

/-- The region's arrays as the proof data holds them: the shared array twice, at the two halves, and the output whole. -/
theorem arraysB_eq (c : Dev nD) (G : (w : Fin cfg1.W) → Buf (Elt F) ((cfg1.win w).arr.view.loc (c : Thread nD τ))) :
    (datB V c).arrays G
      = iprop((((c : Thread nD τ).loc main_v1_1) ↦{fullShare.left} G 0) ∗ (((c : Thread nD τ).loc main_v1_1) ↦{fullShare.right} G 1)
          ∗ (((c : Thread nD τ).loc main_v2) ↦{fullShare} G 2)) := by
  unfold Dat.arrays
  rw [bigSep_W1, (arr_whole1 0).set_eq_univ, (arr_whole1 2).set_eq_univ]
  rfl

/-- ENTRY: the core's unscoped buffers at contents `V` are the region's arrays at those contents and the rest. -/
theorem splitB (c : Dev nD) :
    (unscopedBufs c (V c) : sProp 𝕄)
      ⊢ iprop((datB V c).arrays (fun w => V c (Pipeline.arrRef spec1 w)) ∗ Pipeline.unscopedRest spec1 c (V c)) := by
  rw [Pipeline.unscopedBufs_split₀ (fun _ : Fin 1 => cfg1) 0 winFacts₀1.arr_unscoped c (V c), arrBufsB_eq, arraysB_eq]
  iintro ⟨⟨Hx, Ho⟩, Hr⟩
  ihave Hx := (pointsTo_share (PosShare.mem_left_op_right fullShare)).1 $$ Hx
  icases Hx with ⟨Hl, Hrr⟩
  isplitr [Hr]
  · isplitl [Hl]; · iexact Hl
    isplitl [Hrr]; · iexact Hrr
    iexact Ho
  iexact Hr

/-- EXIT: the region's arrays — the shared one at the same contents `x` in both halves, the output at `y` — and the
    rest at `V` are the core's unscoped buffers at any contents `V'` that have `x` and `y` there and agree with `V` elsewhere. -/
theorem joinB (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v1_1) (h1 : G 1 = V' main_v1_1) (h2 : G 2 = V' main_v2)
    (hrest : ∀ b, b ∉ Finset.univ.image (Pipeline.arrRef spec1) → V' b = V c b) :
    iprop((datB V c).arrays G ∗ Pipeline.unscopedRest spec1 c (V c)) ⊢ (unscopedBufs c V' : sProp 𝕄) := by
  rw [Pipeline.unscopedBufs_split₀ (fun _ : Fin 1 => cfg1) 0 winFacts₀1.arr_unscoped c V', arrBufsB_eq, arraysB_eq, h0, h1, h2]
  have hr : (Pipeline.unscopedRest spec1 c (V c) : sProp 𝕄) = Pipeline.unscopedRest spec1 c V' := by
    unfold Pipeline.unscopedRest
    exact bigSep_congr fun b hb => by rw [hrest b (Finset.mem_sdiff.mp hb).2]
  rw [hr]
  iintro ⟨⟨Hl, Hrr, Ho⟩, Hr⟩
  isplitr [Hr]
  · isplitr [Ho]
    · iapply (pointsTo_share (PosShare.mem_left_op_right fullShare)).2
      isplitl [Hl] <;> iassumption
    iexact Ho
  iexact Hr

end Cert.KernelIdeal.Hand

end
-- ==== Proof.KernelIdeal.MainRun.lean ====
/-
  The whole program, from launch to return: a reshape of the bias on the host, the first kernel region, the second
  kernel region, and seven host operations that average the per-row losses and negate the mean. This module names the
  contents of every unscoped buffer at each boundary between those four stretches (a fold from the launch memory),
  proves that every weakly fair execution terminates without a fault, and that the final memory holds exactly the
  last boundary's contents in every unscoped buffer.
-/
import proofs.«110632_j7215545057629_2_alg».proof.Proof.KernelIdeal.Region0
import proofs.«110632_j7215545057629_2_alg».proof.Proof.KernelIdeal.Shares

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev atLaunch : Dev nD → Valuation τ sig (Elt F) := fun c b => (s₀ m ρ).mem ((c : Dev nD), b)
/-- After the bias is reshaped to a row: the first region's entry. -/
abbrev atEntryA : Dev nD → Valuation τ sig (Elt F) := fun c => StableHlo.after hostOps0 (atLaunch m ρ c)
abbrev entryA : (c : Dev nD) → (b : Ref sig .tc) → Buf (Elt F) ((c : Thread nD τ).loc b) := fun c b => atEntryA m ρ c b
/-- At the first region's exit: its arrays at what its write-backs leave, every other buffer as entered. -/
def atExitA (c : Dev nD) : Valuation τ sig (Elt F) :=
  Pipeline.withArrays spec0 c (atEntryA m ρ c) fun w => (datA (entryA m ρ) c).arrAt w cfg0.N
theorem atExitA_arr (c : Dev nD) (w : Fin cfg0.W) :
    atExitA m ρ c (Proc.devRef .tc (Pipeline.arrRef spec0 w)) = (datA (entryA m ρ) c).arrAt w cfg0.N := by
  unfold atExitA; exact Pipeline.withArrays_arr spec0 launch0.win.arr_inj c _ _ w
theorem atExitA_of_ne (c : Dev nD) (b : Ref sig .tc) (hb : ∀ w, Pipeline.arrRef spec0 w ≠ b) :
    atExitA m ρ c (Proc.devRef .tc b) = atEntryA m ρ c (Proc.devRef .tc b) := by
  unfold atExitA; exact Pipeline.withArrays_of_ne spec0 c _ _ b hb
/-- The same, read at the TensorCore's references: the second region's entry (no host operation stands between). -/
abbrev entryB : (c : Dev nD) → (b : Ref sig .tc) → Buf (Elt F) ((c : Thread nD τ).loc b) := fun c b => atExitA m ρ c b
theorem exitA_arr (c : Dev nD) (w : Fin cfg0.W) : (datA (entryA m ρ) c).arrAt w cfg0.N = entryB m ρ c (Pipeline.arrRef spec0 w) :=
  (atExitA_arr m ρ c w).symm
theorem exitA_rest (c : Dev nD) : ∀ b, b ∉ Finset.univ.image (Pipeline.arrRef spec0) → entryB m ρ c b = entryA m ρ c b :=
  fun b hb => atExitA_of_ne m ρ c b fun w e => hb (Finset.mem_image.mpr ⟨w, Finset.mem_univ _, e⟩)

/-- At the second region's exit: the per-row losses at what its write-backs leave, every other buffer as entered. -/
def atExitB (c : Dev nD) : Valuation τ sig (Elt F) :=
  Function.update (atExitA m ρ c) (Proc.devRef .tc main_v2) ((datB (entryB m ρ) c).arrAt 2 cfg1.N)
abbrev exitB : (c : Dev nD) → (b : Ref sig .tc) → Buf (Elt F) ((c : Thread nD τ).loc b) := fun c b => atExitB m ρ c b
theorem exitB_loss (c : Dev nD) : exitB m ρ c main_v2 = (datB (entryB m ρ) c).arrAt 2 cfg1.N := by
  show atExitB m ρ c (Proc.devRef .tc main_v2) = _
  unfold atExitB; exact Function.update_self ..
theorem exitB_of_ne (c : Dev nD) (b : Ref sig .tc) (hb : b ≠ main_v2) : exitB m ρ c b = entryB m ρ c b := by
  show atExitB m ρ c (Proc.devRef .tc b) = atExitA m ρ c (Proc.devRef .tc b)
  unfold atExitB; exact Function.update_of_ne (StableHlo.devRef_ne_of_ne hb) ..
/-- After the host's closing operations: the end. -/
abbrev atEnd : Dev nD → Valuation τ sig (Elt F) := fun c => StableHlo.after hostOps2 (atExitB m ρ c)

/-! ## The proof data family and the thread state -/

abbrev noTables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) noTables p) c
  | ⟨0, _⟩ => fun c => datA (entryA m ρ) c
  | ⟨1, _⟩ => fun c => datB (entryB m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noAlloc : (hostOps0 : List (HloOp τ sig (Elt F))).Forall fun op => op.fresh = ∅ := by
  simp only [List.Forall]; repeat' constructor
theorem hostOps2_noAlloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first region: entered with every unscoped buffer at `atEntryA`, left with them at `atExitA`. -/
def regA : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligationA (entryA m ρ) c).loose
  hwaits := Pipeline.hwaits_of_owed_zero _ _ _ _ L lv 0 fun _ _ => rfl
  pre c := iprop(StableHlo.held (c : Thread nD τ) (Pipeline.ucRefs τ sig) (atEntryA m ρ c) ∗ R c)
  post c := iprop(StableHlo.held (c : Thread nD τ) (Pipeline.ucRefs τ sig) (atExitA m ρ c) ∗ R c)
  X c := iprop(∃ r, prngReg c r)
  Y c := iprop(∃ r, prngReg c r)
  Z c := Pipeline.unscopedRest (Ix := Unit) (Name := ℕ) (U := UR sig nD τ) (Lvl := ℕ) spec0 c (entryA m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (entryA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (entryA m ρ c) (entryB m ρ c) ((pdats m ρ 0 c).arrAt · cfg0.N) (exitA_arr m ρ c) (exitA_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state the second region leaves: every unscoped buffer at `atExitB`, the generator register, nothing owed. -/
abbrev afterB (c : Dev nD) : sProp 𝕄 := iprop(StableHlo.held (c : Thread nD τ) (Pipeline.ucRefs τ sig) (atExitB m ρ c) ∗ R c)

set_option backward.isDefEq.respectTransparency.types false in
/-- The second region: entered with every unscoped buffer at `atExitA`, left with them at `atExitB`. The array both
    input windows read is split in two halves at the entry and joined at the exit. -/
def regB : Pipeline.RegionSeg (pcfgs (F := F)) noTables (pdats m ρ) () defs₀ 𝒱₀ L lv 1 where
  win := winFacts₀1
  block_pos := block_pos1
  stage_whole := stage_whole1
  K := PEmpty
  osem k := k.elim
  ho := Pipeline.OwnSemFacts.none _
  hbody c := (obligationB (entryB m ρ) c).loose
  hwaits := Pipeline.hwaits_of_owed_zero _ _ _ _ L lv 1 fun _ _ => rfl
  pre c := iprop(StableHlo.held (c : Thread nD τ) (Pipeline.ucRefs τ sig) (atExitA m ρ c) ∗ R c)
  post c := afterB m ρ c
  X c := iprop(∃ r, prngReg c r)
  Y c := iprop(∃ r, prngReg c r)
  Z c := Pipeline.unscopedRest (Ix := Unit) (Name := ℕ) (U := UR sig nD τ) (Lvl := ℕ) spec1 c (entryB m ρ c)
  hentry c := by
    rw [Pipeline.ownSems0_none]
    have hsplit := splitB (entryB m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (entryB m ρ c))
        ⊢ (unscopedBufs c (exitB m ρ c) : sProp 𝕄) := joinB (entryB m ρ) c (exitB m ρ c) ((datB (entryB m ρ) c).arrAt · cfg1.N)
      (((datB (entryB m ρ) c).arrAt_in 0 rfl _).trans ((datB_A (entryB m ρ) c 0).trans (exitB_of_ne m ρ c main_v1_1 (by decide)).symm))
      (((datB (entryB m ρ) c).arrAt_in 1 rfl _).trans ((datB_A (entryB m ρ) c 1).trans (exitB_of_ne m ρ c main_v1_1 (by decide)).symm))
      (exitB_loss m ρ c).symm
      (fun b hb => exitB_of_ne m ρ c b fun e => hb (e ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) noTables (pdats m ρ) () defs₀ 𝒱₀ L lv) :=
  [ .host (hseg hostOps0 hostOps0_sub hostOps0_noAlloc (atLaunch m ρ)),
    .region (regA m ρ),
    .region (regB m ρ),
    .host (hseg hostOps2 hostOps2_sub hostOps2_noAlloc (atExitB m ρ)) ]
theorem main_run (c : Dev nD) : main (F := F) c = Pipeline.Seg.run (segs m ρ) := (main_chain c).trans (by chain_rfl)

/-- The last thread state without what the core owes. -/
abbrev atReturn (c : Dev nD) : sProp 𝕄 := iprop(StableHlo.held (c : Thread nD τ) (Pipeline.ucRefs τ sig) (atEnd m ρ c) ∗ ∃ r, prngReg c r)

/-- The closing host stretch leaves the last thread state beside what the core owes: nothing. -/
theorem lastChain (c : Dev nD) :
    iprop(StableHlo.held (c : Thread nD τ) (Pipeline.ucRefs τ sig) (atEnd m ρ c) ∗ R (F := F) c)
      ⊢ iprop(atReturn m ρ c ∗ ∃ W, owes (c : Thread nD τ) (0 : CellTallies nD τ sig Unit) W) := by
  iintro ⟨Hh, Hp, HO⟩
  isplitr [HO]
  · isplitl [Hh]; · iexact Hh
    iexact Hp
  iexact HO

set_option backward.isDefEq.respectTransparency.types false in
/-- THE RUN. From any memory with zero counters every weakly fair execution of the program terminates, nothing
    faulting, and the final memory holds `atEnd` in every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := atReturn m ρ)
    (hch := ⟨fun _ => .rfl, fun _ => .rfl, fun _ => .rfl, fun _ => .rfl, fun c => lastChain m ρ c⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h c => h c)

end Cert.KernelIdeal.Hand

end
-- ==== Proof.KernelIdeal.Frame.lean ====
/-
  The frame: from any memory with zero counters every weakly fair execution of the program terminates, nothing
  faulting, and the three argument arrays end as launched. No host operation writes an argument; the first region reads
  two of them through input windows, which are never written back, and bypasses the third; the second region touches none.
-/
import proofs.«110632_j7215545057629_2_alg».proof.Proof.KernelIdeal.MainRun

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The first region's entry -/

/-- The host's one operation before the first region writes no argument, -/
theorem entryA_arg0 (c : Dev nD) : entryA m ρ c main_arg0 = m ((c : Thread nD τ).loc main_arg0) := by
  show StableHlo.after hostOps0 (fun b => m (c, b)) (Proc.devRef .tc main_arg0) = _
  after_results
theorem entryA_arg1 (c : Dev nD) : entryA m ρ c main_arg1 = m ((c : Thread nD τ).loc main_arg1) := by
  show StableHlo.after hostOps0 (fun b => m (c, b)) (Proc.devRef .tc main_arg1) = _
  after_results
theorem entryA_arg2 (c : Dev nD) : entryA m ρ c main_arg2 = m ((c : Thread nD τ).loc main_arg2) := by
  show StableHlo.after hostOps0 (fun b => m (c, b)) (Proc.devRef .tc main_arg2) = _
  after_results
/-- and leaves the bias laid out as a row. -/
theorem entryA_biasRow (c : Dev nD) :
    entryA m ρ c main_v0 = shapeCast S1x64 (m ((c : Thread nD τ).loc main_arg2)) shapeCasts_S64_S1x64 := by
  show StableHlo.after hostOps0 (fun b => m (c, b)) (Proc.devRef .tc main_v0) = _
  after_results
  rfl

/-! ## The end -/

theorem atEnd_arg0 (c : Dev nD) : atEnd m ρ c (Proc.devRef .tc main_arg0) = m ((c : Thread nD τ).loc main_arg0) := by
  show StableHlo.after hostOps2 (atExitB m ρ c) (Proc.devRef .tc main_arg0) = _
  after_results
  refine (exitB_of_ne m ρ c main_arg0 (by decide)).trans ?_
  show entryB m ρ c (Pipeline.arrRef spec0 0) = _
  exact (exitA_arr m ρ c 0).symm.trans (((datA (entryA m ρ) c).arrAt_in 0 rfl _).trans ((datA_A (entryA m ρ) c 0).trans (entryA_arg0 m ρ c)))
theorem atEnd_arg1 (c : Dev nD) : atEnd m ρ c (Proc.devRef .tc main_arg1) = m ((c : Thread nD τ).loc main_arg1) := by
  show StableHlo.after hostOps2 (atExitB m ρ c) (Proc.devRef .tc main_arg1) = _
  after_results
  refine (exitB_of_ne m ρ c main_arg1 (by decide)).trans ?_
  show entryB m ρ c (Pipeline.arrRef spec0 1) = _
  exact (exitA_arr m ρ c 1).symm.trans (((datA (entryA m ρ) c).arrAt_in 1 rfl _).trans ((datA_A (entryA m ρ) c 1).trans (entryA_arg1 m ρ c)))
theorem atEnd_arg2 (c : Dev nD) : atEnd m ρ c (Proc.devRef .tc main_arg2) = m ((c : Thread nD τ).loc main_arg2) := by
  show StableHlo.after hostOps2 (atExitB m ρ c) (Proc.devRef .tc main_arg2) = _
  after_results
  refine (exitB_of_ne m ρ c main_arg2 (by decide)).trans ?_
  exact (exitA_rest m ρ c main_arg2 (by decide)).trans (entryA_arg2 m ρ c)

/-- THE FRAME, at any instance of the float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (atEnd_arg0 m ρ c),
     (h c _ (mem_uc main_arg1 (by decide))).trans (atEnd_arg1 m ρ c),
     (h c _ (mem_uc main_arg2 (by decide))).trans (atEnd_arg2 m ρ c)⟩)
    (run_all m ρ)

end Cert.KernelIdeal.Hand

end
-- ==== Proof.Spec.lean ====
/-
  The mathematics both programs compute, stated once over the extended reals and literal extents.
  From a column `x` of 8192 entries, a row `w` of 64 weights and 64 biases `b`:
    * the affine rows  a(r, k) = x(r) · w(k) + b(k);
    * their lengths    ℓ(r) = √ max(Σₖ a(r, k)², ε);
    * the unit rows    u(r, k) = a(r, k) / ℓ(r);
    * the cosines      c(r, j) = Σₖ u(r, k) · u(j, k);
    * the row losses   L(r) = 1 − minⱼ |c(r, j)|, which is also maxⱼ (1 − |c(r, j)|) because `t ↦ 1 − t` reverses
      the order of the extended reals (no finiteness is needed for that);
    * the result       1 · −((0 + Σᵣ L(r)) / 8192).
  The float literals stay as the words both programs print; only the two infinities are evaluated.
-/
import Idealize.ShloMosaic.PureOps.Ideal
import Idealize.ShloMosaic.PureOps.Ideal.Laws
import Idealize.ShloMosaic.Lib.ValueIdx

noncomputable section

namespace Cert.CosLoss

open Idealize.ShloMosaic Idealize.ShloMosaic.ValueIdx

/-! ## The literals -/

abbrev eps : EReal := Ideal.ofBits .f32 0x2B8CBCCC#32
abbrev one : EReal := Ideal.ofBits .f32 0x3F800000#32
abbrev zero : EReal := Ideal.ofBits .f32 0x00000000#32
abbrev count : EReal := Ideal.ofBits .f32 0x46000000#32
abbrev posInf : EReal := Ideal.ofBits .f32 0x7F800000#32
abbrev negInf : EReal := Ideal.ofBits .f32 0xFF800000#32

theorem posInf_eq : posInf = ⊤ := by simp [posInf, Ideal.ofBits, Ideal.ieee]
theorem negInf_eq : negInf = ⊥ := by simp [negInf, Ideal.ofBits, Ideal.ieee]
theorem one_eq : one = 1 := IdealRules.sign_bit.ideal_onePat .f32

/-! ## The functions -/

variable (x : (⟨2, ![8192, 1]⟩ : Shape).Idx → EReal) (w : (⟨2, ![1, 64]⟩ : Shape).Idx → EReal) (b : (⟨1, ![64]⟩ : Shape).Idx → EReal)

/-- The affine rows. -/
def aff (r : Fin 8192) (k : Fin 64) : EReal := x (ix2 r (0 : Fin 1)) * w (ix2 (0 : Fin 1) k) + b (ix1 k)
/-- Their floored Euclidean lengths. -/
def len (r : Fin 8192) : EReal := Ideal.sqrt (max (∑ k : Fin 64, aff x w b r k * aff x w b r k) eps)
/-- The unit rows. -/
def unit (r : Fin 8192) (k : Fin 64) : EReal := Ideal.div (aff x w b r k) (len x w b r)
/-- The cosines. -/
def cosv (r j : Fin 8192) : EReal := ∑ k : Fin 64, unit x w b r k * unit x w b j k
/-- The absolute cosines. -/
def acos (r j : Fin 8192) : EReal := max (cosv x w b r j) (-(cosv x w b r j))
/-- The row losses, as one minus the least absolute cosine. -/
def loss (r : Fin 8192) : EReal := one - (Finset.univ : Finset (Fin 8192)).fold min posInf (acos x w b r)
/-- The result. -/
def total : EReal := one * -(Ideal.div (zero + ∑ r : Fin 8192, loss x w b r) count)

/-- The arrays. -/
def affArr : (⟨2, ![8192, 64]⟩ : Shape).Idx → EReal := fun i => aff x w b (i 0) (i 1)
def unitArr : (⟨2, ![8192, 64]⟩ : Shape).Idx → EReal := fun i => unit x w b (i 0) (i 1)
def lossArr : (⟨2, ![8192, 1]⟩ : Shape).Idx → EReal := fun i => loss x w b (i 0)
def totalArr : (⟨0, ![]⟩ : Shape).Idx → EReal := fun _ => total x w b

/-! ## The one law: subtraction from a constant reverses the order -/

theorem sub_min (c s t : EReal) : c - min s t = max (c - s) (c - t) :=
  (show Antitone fun u : EReal => c - u from fun _ _ h => EReal.sub_le_sub le_rfl h).map_min

/-- The greatest of the `c − a(j)` is `c` minus the least of the `a(j)`. -/
theorem fold_max_sub {n : Nat} (c t : EReal) (a : Fin n → EReal) :
    (Finset.univ : Finset (Fin n)).fold max (c - t) (fun j => c - a j) = c - (Finset.univ : Finset (Fin n)).fold min t a :=
  Finset.fold_hom (op := min) (op' := max) (m := fun u => c - u) (fun s t => sub_min c s t)

/-- The row loss as the reference takes it: the greatest of one minus the absolute cosines, from minus infinity. -/
theorem loss_eq_fold_max (r : Fin 8192) :
    loss x w b r = (Finset.univ : Finset (Fin 8192)).fold max negInf (fun j => one - acos x w b r j) := by
  have h : negInf = one - posInf := by rw [negInf_eq, posInf_eq, one_eq]; rfl
  rw [h, fold_max_sub]; rfl

end Cert.CosLoss

end
-- ==== Proof.KernelIdeal.Payloads.lean ====
/-
  The two kernel bodies' arithmetic read at an index, at the exact instance. The first body's two stores hold, at
  row `p` and lane `q` of a tile, the affine value `x(p) · w(q) + b(q)` and that value divided by the row's floored
  Euclidean length. The second body's store holds, at row `p`, one minus the least absolute inner product of row `p`
  of its tile with the 8192 rows of the resident array.
-/
import proofs.«110632_j7215545057629_2_alg».proof.Proof.Gen.KernelIdeal.Skeleton
import proofs.«110632_j7215545057629_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen Cert.CosLoss

/-! ## Three layout operations read at an index -/

variable {α : Type}

/-- A column broadcast along the lanes reads, at `(p, q)`, the column at `p`. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else q.val
    rw [if_pos rfl]

/-- A vector cast to a column reads, at `(p, 0)`, the vector at `p`. -/
theorem cast_col {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    omega)

/-! ## The first body -/

/-- The affine value. -/
theorem pay1_apply (x0 : FVec Ideal S1024x1 .f32) (x1 : FVec Ideal S1x64 .f32) (x2 : FVec Ideal S1x64 .f32) (p : Fin 1024) (q : Fin 64) :
    k0_pay1 (F := Ideal) x0 x1 x2 (ix2 p q) = x0 (ix2 p (0 : Fin 1)) * x1 (ix2 (0 : Fin 1) q) + x2 (ix2 (0 : Fin 1) q) := by
  unfold k0_pay1
  simp only [shapeCast_self]
  rw [addf_apply, mulf_apply, bcast_col, broadcastTo_1b_ab_apply, broadcastTo_1b_ab_apply]

/-- A lane sum of a tile at row `p` is the sum over the 64 lanes. -/
theorem laneSum_apply (src : FVec Ideal S1024x64 .f32) (h : S1024x64.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-- The affine value divided by the row's floored length. -/
theorem pay2_apply (x0 : FVec Ideal S1024x1 .f32) (x1 : FVec Ideal S1x64 .f32) (x2 : FVec Ideal S1x64 .f32) (p : Fin 1024) (q : Fin 64) :
    k0_pay2 (F := Ideal) x0 x1 x2 (ix2 p q)
      = Ideal.div (k0_pay1 (F := Ideal) x0 x1 x2 (ix2 p q))
          (Ideal.sqrt (max (∑ k : Fin 64, k0_pay1 (F := Ideal) x0 x1 x2 (ix2 p k) * k0_pay1 (F := Ideal) x0 x1 x2 (ix2 p k)) eps)) := by
  unfold k0_pay2
  generalize k0_pay1 (F := Ideal) x0 x1 x2 = e
  rw [divf_apply, bcast_col]
  refine congrArg (Ideal.div (e (ix2 p q))) ?_
  show Ideal.sqrt (max (shapeCast S1024x1 _ _ (ix2 p (0 : Fin 1))) _) = _
  rw [cast_col]
  refine congrArg Ideal.sqrt (congrArg₂ max ?_ rfl)
  exact laneSum_apply (mulf e e) _ _ _ p

/-! ## The second body -/

/-- The left operand's row is the output's row; the right operand's row is the output's column. -/
theorem rowsDot_lhs0 (i : S128x8192.Idx) (q : dot_S128x64_S8192x64_S128x8192_1_1_0_0_n_n.contr.Idx) :
    (dot_S128x64_S8192x64_S128x8192_1_1_0_0_n_n.lhsIdx i q 0).val = (i 0).val := by
  unfold DotDims.lhsIdx
  rw [dif_neg (show ¬(0 : Fin S128x64.rank) ∈ dot_S128x64_S8192x64_S128x8192_1_1_0_0_n_n.lhsBatch by decide), dif_pos (show (0 : Fin S128x64.rank) ∈ dot_S128x64_S8192x64_S128x8192_1_1_0_0_n_n.lhsNonContracting by decide)]
  rfl
theorem rowsDot_rhs0 (i : S128x8192.Idx) (q : dot_S128x64_S8192x64_S128x8192_1_1_0_0_n_n.contr.Idx) :
    (dot_S128x64_S8192x64_S128x8192_1_1_0_0_n_n.rhsIdx i q 0).val = (i 1).val := by
  unfold DotDims.rhsIdx
  rw [dif_neg (show ¬(0 : Fin S8192x64.rank) ∈ dot_S128x64_S8192x64_S128x8192_1_1_0_0_n_n.rhsBatch by decide), dif_pos (show (0 : Fin S8192x64.rank) ∈ dot_S128x64_S8192x64_S128x8192_1_1_0_0_n_n.rhsNonContracting by decide)]
  rfl

/-- The product of a tile of rows with all the rows, contracted along the lanes, at row `p` and column `j`. -/
theorem rowsDot_apply (l : FVec Ideal S128x64 .f32) (r : FVec Ideal S8192x64 .f32) (p : Fin 128) (j : Fin 8192) :
    FloatOps.matmul dot_S128x64_S8192x64_S128x8192_1_1_0_0_n_n (some .fp32) l r (constant S128x8192 .f32 0x00000000#32) (ix2 p j)
      = ∑ k : Fin 64, l (ix2 p k) * r (ix2 j k) := by
  rw [Ideal.matmul_constant_zero_apply, ← Equiv.sum_comp (ValueIdx.contrEquiv1 dot_S128x64_S8192x64_S128x8192_1_1_0_0_n_n 64 rfl rfl).symm]
  refine Finset.sum_congr rfl fun k _ => ?_
  have hk := ValueIdx.contrEquiv1_symm_val dot_S128x64_S8192x64_S128x8192_1_1_0_0_n_n 64 rfl rfl k
  have el : dot_S128x64_S8192x64_S128x8192_1_1_0_0_n_n.lhsIdx (ix2 p j) ((ValueIdx.contrEquiv1 dot_S128x64_S8192x64_S128x8192_1_1_0_0_n_n 64 rfl rfl).symm k) = ix2 p k := funext fun a => Fin.ext (by
    match a with
    | ⟨0, _⟩ => exact rowsDot_lhs0 _ _
    | ⟨1, _⟩ => exact (dot_S128x64_S8192x64_S128x8192_1_1_0_0_n_n.lhsIdx_val_of_single rfl _ _).trans hk)
  have er : dot_S128x64_S8192x64_S128x8192_1_1_0_0_n_n.rhsIdx (ix2 p j) ((ValueIdx.contrEquiv1 dot_S128x64_S8192x64_S128x8192_1_1_0_0_n_n 64 rfl rfl).symm k) = ix2 j k := funext fun a => Fin.ext (by
    match a with
    | ⟨0, _⟩ => exact rowsDot_rhs0 _ _
    | ⟨1, _⟩ => exact (dot_S128x64_S8192x64_S128x8192_1_1_0_0_n_n.rhsIdx_val_of_single rfl _ _).trans hk)
  rw [el, er]

/-- The least entry of row `p` of a 128 × 8192 tile, from plus infinity. -/
theorem rowMin_apply (src : FVec Ideal S128x8192 .f32) (h : S128x8192.Reduces [1] S128) (hφ : FKind.Formats .f32)
    (hacc : (0x7F800000#32 : BitVec 32) = FKind.minimumf.neutral .f32 hφ) (p : Fin 128) :
    multiReduction .minimumf [1] S128 src 0x7F800000#32 h hφ hacc (ix1 p)
      = (Finset.univ : Finset (Fin 8192)).fold min posInf (fun j => src (ix2 p j)) := by
  refine (multiReduction_minimumf_eq_fold src 0x7F800000#32 h hφ hacc (ix1 p)).trans ?_
  refine (h.fold_filter_drop_single _ _ src (ix1 p)).trans ?_
  refine congrArg (Finset.fold min posInf · Finset.univ) (funext fun j => congrArg src (funext fun a => Fin.ext ?_))
  match a with
  | ⟨0, _⟩ => rfl
  | ⟨1, _⟩ => rfl

/-- One minus the least absolute inner product. -/
theorem pay_loss_apply (x0 : FVec Ideal S128x64 .f32) (x1 : FVec Ideal S8192x64 .f32) (p : Fin 128) (u : Fin 1) :
    k1_pay1 (F := Ideal) x0 x1 (ix2 p u)
      = one - (Finset.univ : Finset (Fin 8192)).fold min posInf
          (fun j => max (∑ k : Fin 64, x0 (ix2 p k) * x1 (ix2 j k)) (-(∑ k : Fin 64, x0 (ix2 p k) * x1 (ix2 j k)))) := by
  unfold k1_pay1
  simp only [shapeCast_self]
  rw [subf_apply, cast_col]
  refine congrArg₂ (· - ·) rfl ?_
  refine (rowMin_apply _ _ _ _ p).trans ?_
  refine congrArg (Finset.fold min posInf · Finset.univ) (funext fun j => ?_)
  exact congrArg (fun z : EReal => max z (-z)) (rowsDot_apply x0 x1 p j)

end Cert.KernelIdeal.Hand

end
-- ==== Proof.KernelIdeal.ValuesA.lean ====
/-
  What the first kernel region leaves in its two output arrays, at the exact instance: the array of affine rows and the
  array of unit rows, each as one function of the three argument arrays. A grid point `t` handles rows
  `1024 t … 1024 t + 1023`: its input column block is those rows of the input, its weight and bias blocks are the whole
  rows, and what it writes back is those rows of the two whole-array functions. The eight blocks cover the arrays.
-/
import proofs.«110632_j7215545057629_2_alg».proof.Proof.KernelIdeal.Frame
import proofs.«110632_j7215545057629_2_alg».proof.Proof.KernelIdeal.Payloads

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.CosLoss

variable (m : (ℓ : Loc nD τ sig) → Buf (Elt Ideal) ℓ) (ρ : Dev nD → PrngReg)

/-! ## Which rows a grid point's blocks are -/

theorem offZero : (![0, 0] : Fin 2 → Nat) = fun _ => 0 := funext fun a => by fin_cases a <;> rfl

/-- The printed index maps over the eight points: the column block and both output blocks move with the point along
    the rows; the weight row and the bias row stay. -/
theorem idxA : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The column block at point `t` is rows `1024 t …` of the input column. -/
theorem colBlock_apply (c : Dev nD) (t : Fin cfg0.N) (y : S1024x1.Idx) (k : S8192x1.Idx)
    (hk0 : (k 0).val = 1024 * t.val + (y 0).val) (hk1 : (k 1).val = (y 1).val) :
    (blockA (entryA m ρ) c 0 t : FVec Ideal S1024x1 .f32) y = (m ((c : Thread nD τ).loc main_arg0) : S8192x1.Idx → EReal) k := by
  obtain ⟨e0, e1, -⟩ := idxA t
  unfold blockA
  rw [View.read_apply]
  show entryA m ρ c main_arg0 _ = _
  rw [entryA_arg0]
  congr 1
  funext a; apply Fin.ext
  match a with
  | ⟨0, _⟩ => show win0_0.index t (0 : Fin 2) * 1024 + 1 * (y 0).val = (k 0).val; rw [e0, hk0]; omega
  | ⟨1, _⟩ => show win0_0.index t (1 : Fin 2) * 1 + 1 * (y 1).val = (k 1).val; rw [e1, hk1]; omega

/-- The weight block is the weight row. -/
theorem rowBlock_apply (c : Dev nD) (t : Fin cfg0.N) (q : Fin 64) :
    (blockA (entryA m ρ) c 1 t : FVec Ideal S1x64 .f32) (ix2 (0 : Fin 1) q)
      = (m ((c : Thread nD τ).loc main_arg1) : S1x64.Idx → EReal) (ix2 (0 : Fin 1) q) := by
  obtain ⟨-, -, e0, e1, -⟩ := idxA t
  unfold blockA
  rw [View.read_apply]
  show entryA m ρ c main_arg1 _ = _
  rw [entryA_arg1]
  congr 1
  funext a; apply Fin.ext
  match a with
  | ⟨0, _⟩ => show win0_1.index t (0 : Fin 2) * 1 + 1 * 0 = 0; rw [e0]
  | ⟨1, _⟩ => show win0_1.index t (1 : Fin 2) * 64 + 1 * q.val = q.val; rw [e1]; omega

/-- The bias block is the bias, laid out as a row. -/
theorem biasBlock_apply (c : Dev nD) (t : Fin cfg0.N) (q : Fin 64) :
    (blockA (entryA m ρ) c 2 t : FVec Ideal S1x64 .f32) (ix2 (0 : Fin 1) q)
      = (m ((c : Thread nD τ).loc main_arg2) : S64.Idx → EReal) (ix1 q) := by
  obtain ⟨-, -, -, -, e0, e1, -⟩ := idxA t
  unfold blockA
  rw [View.read_apply]
  show entryA m ρ c main_v0 _ = _
  rw [entryA_biasRow]
  refine (congrArg _ (?_ : _ = ix2 (0 : Fin 1) q)).trans (shapeCast_a_1a_apply _ _ (0 : Fin 1) q)
  funext a; apply Fin.ext
  match a with
  | ⟨0, _⟩ => show win0_2.index t (0 : Fin 2) * 1 + 1 * 0 = 0; rw [e0]
  | ⟨1, _⟩ => show win0_2.index t (1 : Fin 2) * 64 + 1 * q.val = q.val; rw [e1]; omega

/-! ## What a point computes, in the specification's words -/

/-- Row `p` of the tile at point `t` is row `1024 t + p` of the affine rows. -/
theorem tileAff (c : Dev nD) (t : Fin cfg0.N) (p : Fin 1024) (k : Fin 64) (r : Fin 8192) (hr : r.val = 1024 * t.val + p.val) :
    k0_pay1 (F := Ideal) (blockA (entryA m ρ) c 0 t) (blockA (entryA m ρ) c 1 t) (blockA (entryA m ρ) c 2 t) (ix2 p k)
      = aff (m ((c : Thread nD τ).loc main_arg0)) (m ((c : Thread nD τ).loc main_arg1)) (m ((c : Thread nD τ).loc main_arg2)) r k := by
  refine (pay1_apply _ _ _ p k).trans ?_
  unfold aff
  rw [colBlock_apply m ρ c t (ix2 p (0 : Fin 1)) (ix2 r (0 : Fin 1)) hr rfl, rowBlock_apply m ρ c t k, biasBlock_apply m ρ c t k]

/-- … and of the unit rows. -/
theorem tileUnit (c : Dev nD) (t : Fin cfg0.N) (p : Fin 1024) (q : Fin 64) (r : Fin 8192) (hr : r.val = 1024 * t.val + p.val) :
    k0_pay2 (F := Ideal) (blockA (entryA m ρ) c 0 t) (blockA (entryA m ρ) c 1 t) (blockA (entryA m ρ) c 2 t) (ix2 p q)
      = unit (m ((c : Thread nD τ).loc main_arg0)) (m ((c : Thread nD τ).loc main_arg1)) (m ((c : Thread nD τ).loc main_arg2)) r q := by
  refine (pay2_apply _ _ _ p q).trans ?_
  unfold unit len
  rw [tileAff m ρ c t p q r hr]
  refine congrArg (Ideal.div _) (congrArg Ideal.sqrt (congrArg₂ max (Finset.sum_congr rfl fun k _ => ?_) rfl))
  rw [tileAff m ρ c t p k r hr]

/-! ## The write-backs and the final arrays -/

/-- Point `t` writes back rows `1024 t …` of the affine rows. -/
theorem flushedAff (c : Dev nD) (t : Fin cfg0.N) :
    (datA (entryA m ρ) c).flushed 3 t = ((cfg0.win 3).blk t).view.read (Elt Ideal)
      (affArr (m ((c : Thread nD τ).loc main_arg0)) (m ((c : Thread nD τ).loc main_arg1)) (m ((c : Thread nD τ).loc main_arg2))) := by
  obtain ⟨-, -, -, -, -, -, e0, e1, -⟩ := idxA t
  show (cfg0.win 3).cut (grid0.coords t) ((datA (entryA m ρ) c).after 3 t) = _
  rw [datA_after3]
  unfold affineTile
  rw [View.canon_unit_zero offZero]
  simp only [View.ld_unit_zero (S := S1024x1) offZero, View.ld_unit_zero (S := S1x64) offZero]
  funext y
  obtain ⟨p, q, rfl⟩ : ∃ (p : Fin 1024) (q : Fin 64), y = ix2 p q := ⟨y 0, y 1, eq_ix2 y⟩
  have h0 : ((((cfg0.win 3).blk t).view.emb (ix2 p q) : S8192x64.Idx) 0).val = 1024 * t.val + p.val := by
    show win0_3.index t (0 : Fin 2) * 1024 + 1 * p.val = _; rw [e0]; omega
  have h1 : ((((cfg0.win 3).blk t).view.emb (ix2 p q) : S8192x64.Idx) 1).val = q.val := by
    show win0_3.index t (1 : Fin 2) * 64 + 1 * q.val = _; rw [e1]; omega
  show k0_pay1 (F := Ideal) _ _ _ (ix2 p q) = affArr _ _ _ (((cfg0.win 3).blk t).view.emb (ix2 p q))
  exact (tileAff m ρ c t p q _ h0).trans (congrArg (aff _ _ _ _) (Fin.ext h1.symm))

/-- … and of the unit rows. -/
theorem flushedUnit (c : Dev nD) (t : Fin cfg0.N) :
    (datA (entryA m ρ) c).flushed 4 t = ((cfg0.win 4).blk t).view.read (Elt Ideal)
      (unitArr (m ((c : Thread nD τ).loc main_arg0)) (m ((c : Thread nD τ).loc main_arg1)) (m ((c : Thread nD τ).loc main_arg2))) := by
  obtain ⟨-, -, -, -, -, -, -, -, e0, e1⟩ := idxA t
  show (cfg0.win 4).cut (grid0.coords t) ((datA (entryA m ρ) c).after 4 t) = _
  rw [datA_after4]
  unfold unitTile
  rw [View.canon_unit_zero offZero]
  simp only [View.ld_unit_zero (S := S1024x1) offZero, View.ld_unit_zero (S := S1x64) offZero]
  funext y
  obtain ⟨p, q, rfl⟩ : ∃ (p : Fin 1024) (q : Fin 64), y = ix2 p q := ⟨y 0, y 1, eq_ix2 y⟩
  have h0 : ((((cfg0.win 4).blk t).view.emb (ix2 p q) : S8192x64.Idx) 0).val = 1024 * t.val + p.val := by
    show win0_4.index t (0 : Fin 2) * 1024 + 1 * p.val = _; rw [e0]; omega
  have h1 : ((((cfg0.win 4).blk t).view.emb (ix2 p q) : S8192x64.Idx) 1).val = q.val := by
    show win0_4.index t (1 : Fin 2) * 64 + 1 * q.val = _; rw [e1]; omega
  show k0_pay2 (F := Ideal) _ _ _ (ix2 p q) = unitArr _ _ _ (((cfg0.win 4).blk t).view.emb (ix2 p q))
  exact (tileUnit m ρ c t p q _ h0).trans (congrArg (unit _ _ _ _) (Fin.ext h1.symm))

/-- An index lies in point `t`'s block of an output exactly when each coordinate lies in the block's range. -/
theorem memAff (t : Fin cfg0.N) (i : S8192x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v1_0).slice (win0_3.rect t)).set ↔ _
  rw [View.set_slice_whole, Rect.mem_set_unit]
  exact Iff.rfl
theorem memUnit (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v1_1).slice (win0_4.rect t)).set ↔ _
  rw [View.set_slice_whole, Rect.mem_set_unit]
  exact Iff.rfl

/-- Row `r` is covered by point `r / 1024`. -/
theorem coverAff (i : S8192x64.Idx) : ∃ t : Fin cfg0.N, (cfg0.win 3).flush t = true ∧ i ∈ ((cfg0.win 3).blk t).view.set := by
  have h0 : (i 0).val < 8192 := (i 0).isLt
  have h1 : (i 1).val < 64 := (i 1).isLt
  have hN : grid0.N = 8 := N_0
  have ht : (i 0).val / 1024 < cfg0.N := by show _ < grid0.N; omega
  obtain ⟨-, -, -, -, -, -, e0, e1, -⟩ := idxA ⟨(i 0).val / 1024, ht⟩
  refine ⟨⟨(i 0).val / 1024, ht⟩, flush0_3 _, ?_⟩
  rw [memAff]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, ht⟩ (1 : Fin 2) * 64 ≤ (i 1).val ∧ (i 1).val < win0_3.index ⟨(i 0).val / 1024, ht⟩ (1 : Fin 2) * 64 + 64
    rw [e1]; omega
theorem coverUnit (i : S8192x64.Idx) : ∃ t : Fin cfg0.N, (cfg0.win 4).flush t = true ∧ i ∈ ((cfg0.win 4).blk t).view.set := by
  have h0 : (i 0).val < 8192 := (i 0).isLt
  have h1 : (i 1).val < 64 := (i 1).isLt
  have hN : grid0.N = 8 := N_0
  have ht : (i 0).val / 1024 < cfg0.N := by show _ < grid0.N; omega
  obtain ⟨-, -, -, -, -, -, -, -, e0, e1⟩ := idxA ⟨(i 0).val / 1024, ht⟩
  refine ⟨⟨(i 0).val / 1024, ht⟩, flush0_4 _, ?_⟩
  rw [memUnit]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, ht⟩ (1 : Fin 2) * 64 ≤ (i 1).val ∧ (i 1).val < win0_4.index ⟨(i 0).val / 1024, ht⟩ (1 : Fin 2) * 64 + 64
    rw [e1]; omega

/-- The first output array ends at the affine rows, -/
theorem finalAff (c : Dev nD) : (datA (entryA m ρ) c).arrAt 3 cfg0.N
    = affArr (m ((c : Thread nD τ).loc main_arg0)) (m ((c : Thread nD τ).loc main_arg1)) (m ((c : Thread nD τ).loc main_arg2)) :=
  (datA (entryA m ρ) c).arrAt_eq_of_cover 3 _ (fun t _ => flushedAff m ρ c t) coverAff
/-- the second at the unit rows. -/
theorem finalUnit (c : Dev nD) : (datA (entryA m ρ) c).arrAt 4 cfg0.N
    = unitArr (m ((c : Thread nD τ).loc main_arg0)) (m ((c : Thread nD τ).loc main_arg1)) (m ((c : Thread nD τ).loc main_arg2)) :=
  (datA (entryA m ρ) c).arrAt_eq_of_cover 4 _ (fun t _ => flushedUnit m ρ c t) coverUnit

end Cert.KernelIdeal.Hand

end
-- ==== Proof.KernelIdeal.ValuesB.lean ====
/-
  What the second kernel region and the host's closing operations leave, at the exact instance. The region finds the unit
  rows in the array both its input windows read; grid point `t` handles rows `128 t … 128 t + 127` and writes back their
  row losses; the 64 blocks cover the column of losses. The host then sums the column from zero, divides by 8192,
  negates, and multiplies by one.
-/
import proofs.«110632_j7215545057629_2_alg».proof.Proof.KernelIdeal.ValuesA

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.CosLoss

variable (m : (ℓ : Loc nD τ sig) → Buf (Elt Ideal) ℓ) (ρ : Dev nD → PrngReg)

/-! ## The entry contents the region reads -/

/-- The array both input windows read holds the unit rows. -/
theorem entryB_unit (c : Dev nD) : entryB m ρ c main_v1_1
    = unitArr (m ((c : Thread nD τ).loc main_arg0)) (m ((c : Thread nD τ).loc main_arg1)) (m ((c : Thread nD τ).loc main_arg2)) := by
  show entryB m ρ c (Pipeline.arrRef spec0 4) = _
  exact (exitA_arr m ρ c 4).symm.trans (finalUnit m ρ c)

/-! ## Which rows a grid point's blocks are -/

/-- The printed index maps over the 64 points: the tile of rows and the output block move with the point; the
    resident array stays. -/
theorem idxB : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The tile at point `t` is rows `128 t …` of the unit rows. -/
theorem rowsBlock_apply (c : Dev nD) (t : Fin cfg1.N) (p : Fin 128) (k : Fin 64) (r : Fin 8192) (hr : r.val = 128 * t.val + p.val) :
    (blockB (entryB m ρ) c 0 t : FVec Ideal S128x64 .f32) (ix2 p k)
      = unit (m ((c : Thread nD τ).loc main_arg0)) (m ((c : Thread nD τ).loc main_arg1)) (m ((c : Thread nD τ).loc main_arg2)) r k := by
  obtain ⟨e0, e1, -⟩ := idxB t
  unfold blockB
  rw [View.read_apply]
  show entryB m ρ c main_v1_1 _ = _
  rw [entryB_unit]
  unfold unitArr
  refine congrArg₂ (unit _ _ _) (Fin.ext ?_) (Fin.ext ?_)
  · show win1_0.index t (0 : Fin 2) * 128 + 1 * p.val = r.val; rw [e0, hr]; omega
  · show win1_0.index t (1 : Fin 2) * 64 + 1 * k.val = k.val; rw [e1]; omega

/-- The resident block is all the unit rows. -/
theorem allBlock_apply (c : Dev nD) (t : Fin cfg1.N) (j : Fin 8192) (k : Fin 64) :
    (blockB (entryB m ρ) c 1 t : FVec Ideal S8192x64 .f32) (ix2 j k)
      = unit (m ((c : Thread nD τ).loc main_arg0)) (m ((c : Thread nD τ).loc main_arg1)) (m ((c : Thread nD τ).loc main_arg2)) j k := by
  obtain ⟨-, -, e0, e1, -⟩ := idxB t
  unfold blockB
  rw [View.read_apply]
  show entryB m ρ c main_v1_1 _ = _
  rw [entryB_unit]
  unfold unitArr
  refine congrArg₂ (unit _ _ _) (Fin.ext ?_) (Fin.ext ?_)
  · show win1_1.index t (0 : Fin 2) * 8192 + 1 * j.val = j.val; rw [e0]; omega
  · show win1_1.index t (1 : Fin 2) * 64 + 1 * k.val = k.val; rw [e1]; omega

/-! ## What a point computes, in the specification's words -/

/-- Row `p` of the output block at point `t` is the loss of row `128 t + p`. -/
theorem tileLoss (c : Dev nD) (t : Fin cfg1.N) (p : Fin 128) (u : Fin 1) (r : Fin 8192) (hr : r.val = 128 * t.val + p.val) :
    k1_pay1 (F := Ideal) (blockB (entryB m ρ) c 0 t) (blockB (entryB m ρ) c 1 t) (ix2 p u)
      = loss (m ((c : Thread nD τ).loc main_arg0)) (m ((c : Thread nD τ).loc main_arg1)) (m ((c : Thread nD τ).loc main_arg2)) r := by
  refine (pay_loss_apply (blockB (entryB m ρ) c 0 t) (blockB (entryB m ρ) c 1 t) p u).trans ?_
  unfold loss
  refine congrArg (one - ·) (congrArg (Finset.fold min posInf · Finset.univ) (funext fun j => ?_))
  unfold acos cosv
  have h : ∀ (a : FVec Ideal S128x64 .f32) (a' : FVec Ideal S8192x64 .f32),
      (∀ k : Fin 64, a (ix2 p k) = unit (m ((c : Thread nD τ).loc main_arg0)) (m ((c : Thread nD τ).loc main_arg1)) (m ((c : Thread nD τ).loc main_arg2)) r k) →
      (∀ k : Fin 64, a' (ix2 j k) = unit (m ((c : Thread nD τ).loc main_arg0)) (m ((c : Thread nD τ).loc main_arg1)) (m ((c : Thread nD τ).loc main_arg2)) j k) →
      ∑ k : Fin 64, a (ix2 p k) * a' (ix2 j k)
        = ∑ k : Fin 64, unit (m ((c : Thread nD τ).loc main_arg0)) (m ((c : Thread nD τ).loc main_arg1)) (m ((c : Thread nD τ).loc main_arg2)) r k
            * unit (m ((c : Thread nD τ).loc main_arg0)) (m ((c : Thread nD τ).loc main_arg1)) (m ((c : Thread nD τ).loc main_arg2)) j k :=
    fun a a' ha ha' => Finset.sum_congr rfl fun k _ => by rw [ha k, ha' k]
  exact congrArg (fun z : EReal => max z (-z))
    (h (blockB (entryB m ρ) c 0 t) (blockB (entryB m ρ) c 1 t) (fun k => rowsBlock_apply m ρ c t p k r hr) (fun k => allBlock_apply m ρ c t j k))

/-! ## The write-backs and the final array -/

/-- Point `t` writes back rows `128 t …` of the row losses. -/
theorem flushedLoss (c : Dev nD) (t : Fin cfg1.N) :
    (datB (entryB m ρ) c).flushed 2 t = ((cfg1.win 2).blk t).view.read (Elt Ideal)
      (lossArr (m ((c : Thread nD τ).loc main_arg0)) (m ((c : Thread nD τ).loc main_arg1)) (m ((c : Thread nD τ).loc main_arg2))) := by
  obtain ⟨-, -, -, -, e0, e1⟩ := idxB t
  show (cfg1.win 2).cut (grid1.coords t) ((datB (entryB m ρ) c).after 2 t) = _
  rw [datB_after2]
  unfold lossTile
  rw [View.canon_unit_zero offZero]
  simp only [View.ld_unit_zero (S := S128x64) offZero, View.ld_unit_zero (S := S8192x64) offZero]
  funext y
  obtain ⟨p, u, rfl⟩ : ∃ (p : Fin 128) (u : Fin 1), y = ix2 p u := ⟨y 0, y 1, eq_ix2 y⟩
  have h0 : ((((cfg1.win 2).blk t).view.emb (ix2 p u) : S8192x1.Idx) 0).val = 128 * t.val + p.val := by
    show win1_2.index t (0 : Fin 2) * 128 + 1 * p.val = _; rw [e0]; omega
  show k1_pay1 (F := Ideal) _ _ (ix2 p u) = lossArr _ _ _ (((cfg1.win 2).blk t).view.emb (ix2 p u))
  exact tileLoss m ρ c t p u _ h0

theorem memLoss (t : Fin cfg1.N) (i : S8192x1.Idx) :
    i ∈ ((cfg1.win 2).blk t).view.set ↔ ∀ a : Fin 2, win1_2.index t a * S128x1.size a ≤ (i a).val ∧ (i a).val < win1_2.index t a * S128x1.size a + S128x1.size a := by
  show i ∈ ((View.whole main_v2).slice (win1_2.rect t)).set ↔ _
  rw [View.set_slice_whole, Rect.mem_set_unit]
  exact Iff.rfl

/-- Row `r` is covered by point `r / 128`. -/
theorem coverLossArr (i : S8192x1.Idx) : ∃ t : Fin cfg1.N, (cfg1.win 2).flush t = true ∧ i ∈ ((cfg1.win 2).blk t).view.set := by
  have h0 : (i 0).val < 8192 := (i 0).isLt
  have h1 : (i 1).val < 1 := (i 1).isLt
  have hN : grid1.N = 64 := N_1
  have ht : (i 0).val / 128 < cfg1.N := by show _ < grid1.N; omega
  obtain ⟨-, -, -, -, e0, e1⟩ := idxB ⟨(i 0).val / 128, ht⟩
  refine ⟨⟨(i 0).val / 128, ht⟩, flush1_2 _, ?_⟩
  rw [memLoss]
  intro a
  match a with
  | ⟨0, _⟩ =>
    show win1_2.index ⟨(i 0).val / 128, ht⟩ (0 : Fin 2) * 128 ≤ (i 0).val ∧ (i 0).val < win1_2.index ⟨(i 0).val / 128, ht⟩ (0 : Fin 2) * 128 + 128
    rw [e0]; show (i 0).val / 128 * 128 ≤ (i 0).val ∧ (i 0).val < (i 0).val / 128 * 128 + 128; omega
  | ⟨1, _⟩ =>
    show win1_2.index ⟨(i 0).val / 128, ht⟩ (1 : Fin 2) * 1 ≤ (i 1).val ∧ (i 1).val < win1_2.index ⟨(i 0).val / 128, ht⟩ (1 : Fin 2) * 1 + 1
    rw [e1]; omega

/-- The column of losses ends at the row losses. -/
theorem finalLoss (c : Dev nD) : (datB (entryB m ρ) c).arrAt 2 cfg1.N
    = lossArr (m ((c : Thread nD τ).loc main_arg0)) (m ((c : Thread nD τ).loc main_arg1)) (m ((c : Thread nD τ).loc main_arg2)) :=
  (datB (entryB m ρ) c).arrAt_eq_of_cover 2 _ (fun t _ => flushedLoss m ρ c t) coverLossArr

/-! ## The host's closing operations -/

/-- The mean's numerator: the sum over the column, from zero, is the sum of the row losses from zero. -/
theorem meanTail (Lc : FVec Ideal S8192x1 .f32) (i : S_.Idx) :
    mulf (constant (F := Ideal) S_ .f32 0x3F800000#32) (Host.negf (Host.divf (Host.reduceAdd Lc (constant (F := Ideal) S_ .f32 0x00000000#32) reducesTo_S8192x1_S_d0_1 h_S_) (constant (F := Ideal) S_ .f32 0x46000000#32))) i
      = one * -(Ideal.div (zero + ∑ r : Fin 8192, Lc (ix2 r (0 : Fin 1))) count) := by
  show one * -(Ideal.div (Host.reduceAdd Lc (constant (F := Ideal) S_ .f32 0x00000000#32) reducesTo_S8192x1_S_d0_1 h_S_ i) count) = _
  refine congrArg (fun z : EReal => one * -(Ideal.div z count)) ?_
  simp only [Host.reduceAdd, Ideal.hostReduceAdd_def]
  refine (Ideal.hostReduceAdd_total reducesTo_S8192x1_S_d0_1 (fun b => b.elim0) Lc _ i).trans ?_
  refine congrArg₂ (· + ·) rfl ?_
  rw [sum_idx2]
  exact Finset.sum_congr rfl fun r _ => Fin.sum_univ_one _

/-! ## The end -/

/-- The first result is the affine rows, -/
theorem atEnd_aff (c : Dev nD) : atEnd m ρ c (Proc.devRef .tc main_v1_0)
    = affArr (m ((c : Thread nD τ).loc main_arg0)) (m ((c : Thread nD τ).loc main_arg1)) (m ((c : Thread nD τ).loc main_arg2)) := by
  show StableHlo.after hostOps2 (atExitB m ρ c) (Proc.devRef .tc main_v1_0) = _
  after_results
  refine (exitB_of_ne m ρ c main_v1_0 (by decide)).trans ?_
  show entryB m ρ c (Pipeline.arrRef spec0 3) = _
  exact (exitA_arr m ρ c 3).symm.trans (finalAff m ρ c)

/-- the second the negated mean of the row losses. -/
theorem atEnd_total (c : Dev nD) : atEnd m ρ c (Proc.devRef .tc main_v6)
    = totalArr (m ((c : Thread nD τ).loc main_arg0)) (m ((c : Thread nD τ).loc main_arg1)) (m ((c : Thread nD τ).loc main_arg2)) := by
  show StableHlo.after hostOps2 (atExitB m ρ c) (Proc.devRef .tc main_v6) = _
  after_results
  rw [show atExitB m ρ c (Proc.devRef .tc main_v2) = lossArr (m ((c : Thread nD τ).loc main_arg0)) (m ((c : Thread nD τ).loc main_arg1)) (m ((c : Thread nD τ).loc main_arg2))
    from (exitB_loss m ρ c).trans (finalLoss m ρ c)]
  funext i
  exact meanTail _ i

/-! ## The run, read -/

/-- Every weakly fair execution terminates with the two results at the specification's functions of the arguments, and
    the arguments as launched. -/
theorem run_values : θ_run defs (onTc (τ := τ) (main (F := Ideal))) ⟨m, fun _ => 0, ρ⟩ (fun r => ∀ c : Dev nD,
      r.2.mem ((c.tc : Thread nD τ).loc main_v1_0)
        = affArr (m ((c : Thread nD τ).loc main_arg0)) (m ((c : Thread nD τ).loc main_arg1)) (m ((c : Thread nD τ).loc main_arg2))
      ∧ r.2.mem ((c.tc : Thread nD τ).loc main_v6)
        = totalArr (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v1_0 (by decide))).trans (atEnd_aff m ρ c),
     (h c _ (mem_uc main_v6 (by decide))).trans (atEnd_total m ρ c),
     (h c _ (mem_uc main_arg0 (by decide))).trans (atEnd_arg0 m ρ c),
     (h c _ (mem_uc main_arg1 (by decide))).trans (atEnd_arg1 m ρ c),
     (h c _ (mem_uc main_arg2 (by decide))).trans (atEnd_arg2 m ρ c)⟩)
    (run_all m ρ)

end Cert.KernelIdeal.Hand

end
-- ==== Proof.RefSide.lean ====
/-
  The reference's two results as the functions of the argument arrays that the specification names: its first result
  is the array of affine rows, its second the negated mean of the row losses. Each stage of the reference is read at
  an index from the stage before it; the one step that is not a reading is the row loss, which the reference takes as
  the greatest of one minus the absolute cosines and the specification as one minus the least absolute cosine.
-/
import proofs.«110632_j7215545057629_2_alg».proof.Proof.Gen.ReferenceIdeal.Run
import proofs.«110632_j7215545057629_2_alg».proof.Proof.Gen.ReferenceIdeal.Read
import proofs.«110632_j7215545057629_2_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.CosLoss

variable (x : (⟨S8192x1, .f32⟩ : BufTy).Contents (Elt Ideal)) (w : (⟨S1x64, .f32⟩ : BufTy).Contents (Elt Ideal)) (b : (⟨S64, .f32⟩ : BufTy).Contents (Elt Ideal))

/-- The affine rows. -/
theorem v3_apply (r : Fin 8192) (k : Fin 64) : val_main_v3 (F := Ideal) x w b (ix2 r k) = aff x w b r k := by
  rw [val_main_v3_apply, val_main_v0_apply, val_main_v2_apply, val_main_v1_apply, Fin.sum_univ_one]
  have e1 : lidx_main_v0 (ix2 r k) (0 : Fin 1) = ix2 r (0 : Fin 1) :=
    funext fun a => Fin.ext (by match a with | ⟨0, _⟩ => rfl | ⟨1, _⟩ => rfl)
  have e2 : ridx_main_v0 (ix2 r k) (0 : Fin 1) = ix2 (0 : Fin 1) k :=
    funext fun a => Fin.ext (by match a with | ⟨0, _⟩ => rfl | ⟨1, _⟩ => rfl)
  have e3 : idx_main_v1 (idx_main_v2 (ix2 r k)) = ix1 k :=
    funext fun a => Fin.ext (by match a with | ⟨0, _⟩ => rfl)
  rw [e1, e2, e3]
  rfl

theorem v3_eq : val_main_v3 (F := Ideal) x w b = affArr x w b :=
  funext fun i => (congrArg (val_main_v3 (F := Ideal) x w b) (eq_ix2 i)).trans (v3_apply x w b (i 0) (i 1))

/-- The floored lengths, as a column. -/
theorem v9_apply (r : Fin 8192) (u : Fin 1) : val_main_v9 (F := Ideal) x w b (ix2 r u) = len x w b r := by
  rw [val_main_v9_apply, val_main_v8_apply, val_main_v6_apply, val_main_v7_apply, val_main_cst_0_apply, val_main_v5_apply, val_main_cst_apply]
  have e : ∀ k : Fin 64, idx_main_v5 (idx_main_v6 (ix2 r u)) k = ix2 r k := fun k =>
    funext fun a => Fin.ext (by match a with | ⟨0, _⟩ => rfl | ⟨1, _⟩ => rfl)
  simp only [e, val_main_v4_apply, v3_apply]
  show Ideal.sqrt (max (Ideal.ofBits .f32 0x00000000#32 + ∑ k : Fin 64, aff x w b r k * aff x w b r k) eps) = _
  rw [Ideal.ofBits_zero_f32, zero_add]
  rfl

/-- The unit rows. -/
theorem v11_apply (r : Fin 8192) (k : Fin 64) : val_main_v11 (F := Ideal) x w b (ix2 r k) = unit x w b r k := by
  rw [val_main_v11_apply, val_main_v10_apply, v3_apply]
  have e : idx_main_v10 (ix2 r k) = ix2 r (0 : Fin 1) :=
    funext fun a => Fin.ext (by match a with | ⟨0, _⟩ => rfl | ⟨1, _⟩ => rfl)
  rw [e, v9_apply]
  rfl

/-- The cosines. -/
theorem v13_apply (r j : Fin 8192) : val_main_v13 (F := Ideal) x w b (ix2 r j) = cosv x w b r j := by
  rw [val_main_v13_apply]
  unfold cosv
  refine Finset.sum_congr rfl fun k _ => ?_
  have e1 : lidx_main_v13 (ix2 r j) k = ix2 r k :=
    funext fun a => Fin.ext (by match a with | ⟨0, _⟩ => rfl | ⟨1, _⟩ => rfl)
  have e2 : idx_main_v12 (ridx_main_v13 (ix2 r j) k) = ix2 j k :=
    funext fun a => Fin.ext (by match a with | ⟨0, _⟩ => rfl | ⟨1, _⟩ => rfl)
  rw [val_main_v12_apply, e1, e2, v11_apply, v11_apply]

/-- One minus the absolute cosines. -/
theorem v16_apply (r j : Fin 8192) : val_main_v16 (F := Ideal) x w b (ix2 r j) = one - acos x w b r j := by
  rw [val_main_v16_apply, val_main_v15_apply, val_main_cst_1_apply, val_main_v14_apply, v13_apply]
  rfl

/-- The row losses: the greatest of those, from minus infinity. -/
theorem v17_apply (r : Fin 8192) : val_main_v17 (F := Ideal) x w b (ix1 r) = loss x w b r := by
  unfold val_main_v17
  rw [Host.reduce_eq_fold_single FloatOps.maximumf _ _ reducesTo_S8192x8192_S8192_d1 (by decide) h_S_ (ix1 r), loss_eq_fold_max]
  refine congrArg (Finset.fold max negInf · Finset.univ) (funext fun (j : Fin 8192) => ?_)
  have e : (by decide : S8192x8192.Reduces [1] S8192).lift (ix1 r) j = ix2 r j :=
    funext fun a => Fin.ext (by match a with | ⟨0, _⟩ => rfl | ⟨1, _⟩ => rfl)
  show val_main_v16 (F := Ideal) x w b ((by decide : S8192x8192.Reduces [1] S8192).lift (ix1 r) j) = _
  rw [e]
  exact v16_apply x w b r j

/-- A vector's index is its one coordinate. -/
def idxEquiv1 {n : Nat} : (⟨1, ![n]⟩ : Shape).Idx ≃ Fin n where
  toFun i := i 0
  invFun p := ix1 p
  left_inv i := (eq_ix1 i).symm
  right_inv _ := rfl

/-- The negated mean of the row losses. -/
theorem v21_eq : val_main_v21 (F := Ideal) x w b = totalArr x w b := by
  funext i
  rw [val_main_v21_apply, val_main_cst_5_apply, val_main_v20_apply, val_main_v19_apply, val_main_cst_4_apply, val_main_v18_apply, val_main_cst_3_apply]
  have hs : ∑ j : S8192.Idx, val_main_v17 (F := Ideal) x w b j = ∑ r : Fin 8192, loss x w b r := by
    rw [← Equiv.sum_comp (idxEquiv1 (n := 8192)).symm]
    exact Finset.sum_congr rfl fun r _ => v17_apply x w b r
  rw [hs]
  rfl

end Cert.ReferenceIdeal.RefValue

end
-- ==== Proof.lean ====
/-
  The certificate's five claims, assembled.
  Both kernel programs (the one read at machine words and the one read at the extended reals) are the same text: a host
  reshape, a region that forms affine rows and normalises them, a region that takes one minus the least absolute cosine
  of each row against all rows, and a host tail that averages and negates. Their frames come from one run theorem proved
  at any instance of the float values. The reference's frame is its run with the results dropped. Nothing was rewritten
  by the idealisation, so that claim is trivial. For the value claim both runs end at the specification's two functions
  of the argument arrays: the kernel's by reading its regions' write-backs block by block, the reference's by reading its
  operations index by index; the one mathematical step between them is that subtraction from a constant turns a least
  element into a greatest one.
-/
import proofs.«110632_j7215545057629_2_alg».proof.Defs
import proofs.«110632_j7215545057629_2_alg».proof.Proof.Gen.Kernel
import proofs.«110632_j7215545057629_2_alg».proof.Proof.Gen.KernelIdeal
import proofs.«110632_j7215545057629_2_alg».proof.Proof.Gen.ReferenceIdeal
import proofs.«110632_j7215545057629_2_alg».proof.Proof.Gen.Pre_finite_inputs
import proofs.«110632_j7215545057629_2_alg».proof.Proof.Kernel.Frame
import proofs.«110632_j7215545057629_2_alg».proof.Proof.KernelIdeal.ValuesB
import proofs.«110632_j7215545057629_2_alg».proof.Proof.RefSide

noncomputable section

namespace Cert.Proof

open Idealize.ShloMosaic Idealize.SL.Sem Cert.CosLoss

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the affine rows and the negated mean of the row losses of the same arguments. -/
theorem algebraic : Cert.algebraic_KernelIdeal_ReferenceIdeal := by
  intro m ρ m' ρ' _ hagree
  refine ⟨_, _, Cert.KernelIdeal.Hand.run_values m ρ, ?_⟩
  refine (θ_run Cert.ReferenceIdeal.defs _ _).mono (fun _ h c => ?_) (Cert.ReferenceIdeal.Value.run (F := Ideal) m' ρ')
  obtain ⟨h3, h21, ha0, ha1, ha2⟩ := h c
  obtain ⟨g0, g1, g2⟩ := hagree c
  refine ⟨?_, ?_, ha0, ha1, ha2⟩
  · rw [h3, Cert.ReferenceIdeal.Read.val_main_v3_eq, Cert.ReferenceIdeal.RefValue.v3_eq, g0, g1, g2]
  · rw [h21, Cert.ReferenceIdeal.Read.val_main_v21_eq, Cert.ReferenceIdeal.RefValue.v21_eq, g0, g1, g2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
